-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S2x4096x1024 .f32) (main_arg1 : FVec F S1024x1024 .f32) (main_arg2 : FVec F S4096x1024 .f32) (main_arg3 : FVec F S4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S2x4096x1024 : Shape := ⟨3, ![2, 4096, 1024]⟩
abbrev S1024x1024 : Shape := ⟨2, ![1024, 1024]⟩
abbrev S4096x1024 : Shape := ⟨2, ![4096, 1024]⟩
abbrev S1x512x1024 : Shape := ⟨3, ![1, 512, 1024]⟩
abbrev S512x1024 : Shape := ⟨2, ![512, 1024]⟩
abbrev S512x512 : Shape := ⟨2, ![512, 512]⟩
abbrev S1x1024x1024 : Shape := ⟨3, ![1, 1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S2x4096x1024, .bf16⟩
  | .hbm, ⟨6, _⟩ => ⟨S2x4096x1024, .bf16⟩
  | .hbm, ⟨7, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  slices_S512x1024_o0_0_S512x512 : S512x1024.Slices ![0, 0] S512x512
  slices_S512x1024_o0_512_S512x512 : S512x1024.Slices ![0, 512] S512x512
  concatenates_S512x512_S512x512_S512x1024_d1 : Shape.Concatenates [S512x512, S512x512] S512x1024 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x4096x1024.size a
  hwx0_0 : ∀ i : grid0.Coords, EltTy.bits .f32 = 32 ∨ (Rect.block (s := S2x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S2x4096x1024.size a
  hwx0_4 : ∀ i : grid0.Coords, EltTy.bits .bf16 = 32 ∨ (Rect.block (s := S2x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S2x4096x1024.size a
  hwx0_5 : ∀ i : grid0.Coords, EltTy.bits .bf16 = 32 ∨ (Rect.block (s := S2x4096x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S2x4096x1024.size a
  hwx1_0 : ∀ i : grid1.Coords, EltTy.bits .bf16 = 32 ∨ (Rect.block (s := S2x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S2x4096x1024.size a
  hwx1_1 : ∀ i : grid1.Coords, EltTy.bits .bf16 = 32 ∨ (Rect.block (s := S2x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S2x4096x1024.size a
  hwx1_2 : ∀ i : grid1.Coords, EltTy.bits .f32 = 32 ∨ (Rect.block (s := S2x4096x1024) S1x1024x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S4096x1024 : Shape := ⟨2, ![4096, 1024]⟩
abbrev S1x4096x1024 : Shape := ⟨3, ![1, 4096, 1024]⟩
abbrev S2x4096x512 : Shape := ⟨3, ![2, 4096, 512]⟩
abbrev S2x4096x4096 : Shape := ⟨3, ![2, 4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1x4096x1024, .f32⟩
  | .hbm, ⟨5, _⟩ => ⟨S2x4096x1024, .f32⟩
  | .hbm, ⟨6, _⟩ => ⟨S2x4096x1024, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S2x4096x1024, .f32⟩
  | .hbm, ⟨11, _⟩ => ⟨S1x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x4096, .f32⟩
  | .hbm, ⟨17, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S4096x1024_S1x4096x1024_1_2 : S4096x1024.BroadcastsInDim S1x4096x1024 (![1, 2] : Fin 2 → Fin S1x4096x1024.rank)
  bcast_S1x4096x1024_S2x4096x1024_0_1_2 : S1x4096x1024.BroadcastsInDim S2x4096x1024 (![0, 1, 2] : Fin 3 → Fin S2x4096x1024.rank)
  slices_S2x4096x1024_S2x4096x512_0_0_0 : S2x4096x1024.Slices ![0, 0, 0] S2x4096x512
  slices_S2x4096x1024_S2x4096x512_0_0_512 : S2x4096x1024.Slices ![0, 0, 512] S2x4096x512
  concatenates_S2x4096x512_S2x4096x512_S2x4096x1024_d2 : Shape.Concatenates [S2x4096x512, S2x4096x512] S2x4096x1024 2
  dot_S2x4096x1024_S1024x1024_S2x4096x1024_2_1_01_0_n_n_wf : DotDims.WF S2x4096x1024 S1024x1024 S2x4096x1024 [2] [1] [0, 1] [0] [] []
  dot_S2x4096x1024_S2x4096x1024_S2x4096x4096_2_2_1_1_0_0_wf : DotDims.WF S2x4096x1024 S2x4096x1024 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf
def dot_S2x4096x1024_S2x4096x1024_S2x4096x4096_2_2_1_1_0_0 : DotDims S2x4096x1024 S2x4096x1024 S2x4096x4096 where
  lhsContracting := [2]
  rhsContracting := [2]
  lhsNonContracting := [1]
  rhsNonContracting := [1]
  lhsBatch := [0]
  rhsBatch := [0]
  wf := dot_S2x4096x1024_S2x4096x1024_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.KernelRope.lean ====
/-
  The first kernel region (the rotary embedding and the query projection), at any float instance.

  The grid has 16 points `(b, i)`; at a point the body is handed one block of 512 rows of each of the
  activations, the cosine table and the sine table, and the whole transposed weight, and fills two
  output blocks of 512 rows: the embedded rows and their projection. Nothing is kept from point to point.
  This module states what the body leaves in the two output blocks as a function of the four input
  blocks, proves the body's triple, and packages it as the region's proof data: every input buffer holds
  its array's block at the point (fetched there or carried over), every output buffer the body's result.
-/
import proofs.«160731_j26345329393796_1_alg».proof.Proof.Gen.Kernel.Launch
import proofs.«160731_j26345329393796_1_alg».proof.Proof.Gen.Kernel.Skeleton
import proofs.«160731_j26345329393796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether or not the point fetched it: an unfetched
    block is the previous point's, which has the same index. One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rA : Rect S1x512x1024 := Rect.unit (s := S1x512x1024) ![0, 0, 0] S1x512x1024.size inb_S1x512x1024_S1x512x1024_0_0_0
abbrev rT : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the embedded-rows block: its one store, of the embedding of the three loaded blocks. -/
def outH (x0 : Vec F S1x512x1024 .f32) (x1 x2 : Vec F S512x1024 .f32) : Vec F S1x512x1024 .bf16 :=
  View.canon [⟨rA, k0_pay2 (View.ld x0 rA) (View.ld x1 rT) (View.ld x2 rT)⟩]

/-- What the body leaves in the projected-rows block: its one store, of the projection of the embedding. -/
def outQ (x0 : Vec F S1x512x1024 .f32) (x1 x2 : Vec F S512x1024 .f32) (x3 : Vec F S1024x1024 .f32) : Vec F S1x512x1024 .bf16 :=
  View.canon [⟨rA, k0_pay3 (View.ld x0 rA) (View.ld x1 rT) (View.ld x2 rT) (View.ld x3 rW)⟩]

/-- One whole-buffer store covers the buffer. -/
theorem coverA (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

/-! ## The body's triple -/

set_option maxHeartbeats 2000000 in
/-- The body on whole buffers, the four inputs' at contents `x0 … x3` and the outputs' at anything, runs to the
    continuation with the inputs' as they were and the outputs' at `outH`, `outQ` of them. -/
theorem sound_kernel (c : Dev nD) (E : Set ℕ) (i : grid0.Coords)
    (arg2 : Memref sig .tc .vmem S1x512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .f32) (x1 x2 : Vec F S512x1024 .f32) (x3 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outH x0 x1 x2)
            ∗ owns (c : Thread nD τ) arg7 fullShare (outQ x0 x1 x2 x3)) -∗ K ⟨⟩))
      ⊢ wp frame (wpE (defs₀ (F := F)) Variants.none c none) E (cc0__rope_proj_kernel i arg2 harg2 arg3 harg3 arg4 harg4 arg5 harg5 arg6 harg6 arg7 harg7) K := by
  simp only [cc0__rope_proj_kernel_eq_skeleton]; unfold cc0__rope_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  iexists _; isplitr
  swap; · iexact H5
  ipureintro
  exact View.read_writes_eq_canon _ _ _ (coverA _)

/-! ## The region's proof data -/

/-- The arrays as the region finds them; after the body at point `t` every input buffer at its block and the two
    output buffers at the body's results of the input blocks; the invariant holds only what the body never
    touches (the other regions' scoped buffers and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outH (iblk V c 0 t) (iblk V c 1 t) (iblk V c 2 t)
    | ⟨5, _⟩ => outQ (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outH (iblk V c 0 t) (iblk V c 1 t) (iblk V c 2 t) := by dsimp only [dat]
theorem after_5 (c : Dev nD) (t : Fin cfg0.N) : (dat V c).after 5 t = outQ (iblk V c 0 t) (iblk V c 1 t) (iblk V c 2 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Rope

end
-- ==== Proof.KernelAttn.lean ====
/-
  The second kernel region (scores against keys, then scores against values, accumulated over key blocks),
  at any float instance.

  The grid has 32 points `(b, i, k)`, `k` innermost. At a point the body is handed the block of 1024 query
  rows `i` and the block of 1024 key rows `k` of batch `b`; it keeps a running sum in a scratch buffer:
  at `k = 0` the scratch is cleared first; at every `k` the product (queries · keysᵀ) · keys of the two blocks
  is added to it; at `k = 3` the scratch is copied into the output block, which is written back there and
  nowhere else. So the scratch after point `n` is a recursion on `n` within each group of four points.
-/
import proofs.«160731_j26345329393796_1_alg».proof.Proof.Gen.Kernel.Launch
import proofs.«160731_j26345329393796_1_alg».proof.Proof.Gen.Kernel.Skeleton
import proofs.«160731_j26345329393796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "this is the first key block": the body's first branch condition, from the grid coordinates. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- "this is the last key block": the body's second branch condition. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-- The output window is idle, and not written back, exactly off the last key block; the inputs are never idle. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem live_2 : ∀ t : Fin cfg1.N, condLast (grid1.coords t) → cfg1.idle 2 (grid1.coords t) = false := by decide +kernel

/-! ## The body's accesses: every load and store is of a whole buffer -/

abbrev rB : Rect S1x1024x1024 := Rect.unit (s := S1x1024x1024) ![0, 0, 0] S1x1024x1024.size inb_S1x1024x1024_S1x1024x1024_0_0_0
abbrev rS : Rect S1024x1024 := Rect.unit (s := S1024x1024) ![0, 0] S1024x1024.size inb_S1024x1024_S1024x1024_0_0

/-- The scratch's staging memref and view. -/
abbrev scM : Memref sig .tc .vmem S1024x1024 .f32 := Memref.whole cc1_scratch0

/-- The cleared scratch. -/
def zeroS : Vec F S1024x1024 .f32 := k1_pay1 (F := F)
/-- The scratch after one accumulation step over contents `xs`, from the query block `x0` and the key block `x1`. -/
def stepS (x0 x1 : Vec F S1x1024x1024 .bf16) (xs : Vec F S1024x1024 .f32) : Vec F S1024x1024 .f32 :=
  k1_pay2 x0 x1 xs
/-- The output block at the last key block: the scratch, re-shaped. -/
def outO (xs : Vec F S1024x1024 .f32) : Vec F S1x1024x1024 .f32 :=
  k1_pay3 xs

theorem coverS (p0 : Vec F S1024x1024 .f32) (y : S1024x1024.Idx) :
    ∃ pc ∈ ([⟨rS, p0⟩] : List (View.Piece (Elt F) S1024x1024 .f32)), y ∈ pc.1.set :=
  View.cover_of_tiled [⟨rS, p0⟩] S1024x1024.size (by rfl) y
theorem coverB (p0 : Vec F S1x1024x1024 .f32) (y : S1x1024x1024.Idx) :
    ∃ pc ∈ ([⟨rB, p0⟩] : List (View.Piece (Elt F) S1x1024x1024 .f32)), y ∈ pc.1.set :=
  View.cover_of_tiled [⟨rB, p0⟩] S1x1024x1024.size (by rfl) y

/-! ## Whole-buffer accesses read and leave exactly their contents -/

theorem hz2 : (![0, 0] : Fin 2 → Nat) = fun _ => 0 := by funext a; fin_cases a <;> rfl
theorem hz3 : (![0, 0, 0] : Fin 3 → Nat) = fun _ => 0 := by funext a; fin_cases a <;> rfl

section Whole
variable {sg : RefSig} {κ : Kind} {sp : Space} {S : Shape} {e : EltTy}

/-- After a store of the whole buffer, the buffer reads the stored value, whatever was stored before. -/
theorem read_whole_store (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole buffer reads the buffer. -/
theorem readAt_whole (v : View sg κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero h inb (v.read (Elt F) f)

/-- A load of the whole buffer after a store of the whole buffer reads the stored value. -/
theorem readCov_whole (v : View sg κ sp S e) {off : Fin S.rank → Nat}
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect (Val := Elt F) v (Rect.unit off S.size inb) w L
end Whole

/-! ## The body's triple, case by case -/

set_option maxHeartbeats 2000000 in
/-- First key block: the scratch, at anything, ends at one step over the cleared scratch; the output buffer is not touched. -/
theorem kernel_first (c : Dev nD) (E : Set ℕ) (i : grid1.Coords) (hc1 : condFirst i) (hc2 : ¬condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
            ∗ owns (c : Thread nD τ) arg6 fullShare (stepS x0 x1 (zeroS (F := F)))) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d6, %f6, -, H6⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [read_whole_store _ _ hz2, readAt_whole _ _ hz3, readAt_whole _ _ hz3, readCov_whole]
  rfl

set_option maxHeartbeats 2000000 in
/-- A middle key block: the scratch at `xs` ends one step further; the output buffer is not touched. -/
theorem kernel_mid (c : Dev nD) (E : Set ℕ) (i : grid1.Coords) (hc1 : ¬condFirst i) (hc2 : ¬condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1
            ∗ owns (c : Thread nD τ) arg6 fullShare (stepS x0 x1 xs)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [read_whole_store _ _ hz2, readAt_whole _ _ hz3, readAt_whole _ _ hz3, readAt_whole _ _ hz2]
  rfl

set_option maxHeartbeats 2000000 in
/-- Last key block: the scratch at `xs` ends one step further, and the output buffer, at anything, ends at its copy. -/
theorem kernel_last (c : Dev nD) (E : Set ℕ) (i : grid1.Coords) (hc1 : ¬condFirst i) (hc2 : condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (xs : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (outO (stepS x0 x1 xs))
            ∗ owns (c : Thread nD τ) arg6 fullShare (stepS x0 x1 xs)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d5, %f5, -, H5⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    rw [read_whole_store _ _ hz3, readCov_whole, readAt_whole _ _ hz3, readAt_whole _ _ hz3, readAt_whole _ _ hz2]
    rfl
  iexists _; isplitr
  swap; · iexact H6
  ipureintro
  sl_unfold_run_names
  rw [read_whole_store _ _ hz2, readAt_whole _ _ hz3, readAt_whole _ _ hz3, readAt_whole _ _ hz2]
  rfl

/-! ## The scratch after each point -/

/-- The running sum. At position `n` the scratch holds: one step over the cleared scratch at the first key block of a
    group of four points; one step over what the point before left, otherwise. -/
def accAt (c : Dev nD) : (n : ℕ) → n < cfg1.N → Vec F S1024x1024 .f32
  | 0, hn => stepS (iblk V c 0 ⟨0, hn⟩) (iblk V c 1 ⟨0, hn⟩) (zeroS (F := F))
  | n + 1, hn =>
    if (n + 1) % 4 = 0 then stepS (iblk V c 0 ⟨n + 1, hn⟩) (iblk V c 1 ⟨n + 1, hn⟩) (zeroS (F := F))
    else stepS (iblk V c 0 ⟨n + 1, hn⟩) (iblk V c 1 ⟨n + 1, hn⟩) (accAt c n (Nat.lt_of_succ_lt hn))

theorem accAt_first (c : Dev nD) (t : Fin cfg1.N) (h0 : t.val % 4 = 0) :
    accAt V c t.val t.isLt = stepS (iblk V c 0 t) (iblk V c 1 t) (zeroS (F := F)) := by
  obtain ⟨n, hn⟩ := t
  cases n with
  | zero => rfl
  | succ n => exact if_pos h0

theorem accAt_next (c : Dev nD) (t : Fin cfg1.N) (h0 : ¬t.val % 4 = 0) :
    accAt V c t.val t.isLt = stepS (iblk V c 0 t) (iblk V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region's invariant -/

/-- The scoped buffers of the other region, each at anything: what the body never touches. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- What the region is handed is the scratch at anything, the other region's buffers, and the generator register; -/
theorem PhiA_split (c : Dev nD) :
    (Pipeline.ΦA spec1 c : sProp 𝕄) ⊢ iprop((∃ d, owns (c : Thread nD τ) scM fullShare d) ∗ others (F := F) c ∗ (∃ r, prngReg c r)) := by
  unfold Pipeline.ΦA others; rw [scopedRest1_eq]; simp only [scM, owns_whole]
  iintro ⟨⟨A0, A1, A2, A3, A4, A5, A6, A7, A8, A9, A10, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- and the same three give it back. -/
theorem PhiA_join (c : Dev nD) :
    iprop((∃ d, owns (c : Thread nD τ) scM fullShare d) ∗ others (F := F) c ∗ (∃ r, prngReg c r)) ⊢ (Pipeline.ΦA spec1 c : sProp 𝕄) := by
  unfold Pipeline.ΦA others; rw [scopedRest1_eq]; simp only [scM, owns_whole]
  iintro ⟨HS, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact HS
  iexact Hg

/-- The invariant before position `n`: before the first point what the region is handed; afterwards the scratch at
    what the point before left in it, beside the untouched rest. -/
def PhiS (c : Dev nD) : (n : ℕ) → n ≤ cfg1.N → sProp 𝕄
  | 0, _ => Pipeline.ΦA spec1 c
  | n + 1, hn => iprop(owns (c : Thread nD τ) scM fullShare (accAt V c n hn) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ others (F := F) c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ others (F := F) c ∗ (∃ r, prngReg c r)) := by
  cases n with
  | zero => exact absurd rfl hz
  | succ n => rfl

/-! ## The region's proof data -/

/-- The arrays as the region finds them; after the body every input buffer at its block, and the output buffer at
    the copy of the scratch (consulted only at the last key block of a group, where the body stores it and the
    block is written back); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outO (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outO (accAt V c t.val t.isLt) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the point's place in its group of four: the invariant hands the body the scratch at what
    the point before left (at anything before the first point) and takes it back one step further; off the last key
    block the output buffer passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 32 := lt_of_lt_of_eq t.isLt (show cfg1.N = 32 from N_1)
  by_cases h3 : t.val % 4 = 3
  · -- the last key block of its group
    have h0 : ¬t.val % 4 = 0 := by omega
    have hz : t.val ≠ 0 := by omega
    rw [show (dat V c).leavesExact 2 t = owns (c : Thread nD τ) (st1_2 t) fullShare ((dat V c).after 2 t) from by
      unfold Dat.leavesExact; rw [live_2 t ((hcondLast t).mpr h3)], after_2]
    rw [accAt_next V c t h0, PhiS_castSucc V c t, PhiS_pos V c _ _ hz]
    iintro ⟨⟨HS, Hr, Hg⟩, Ho, ⟨%d0, H0⟩, ⟨%d1, H1⟩, ⟨%d2, H2⟩⟩
    iapply (kernel_last c Set.univ (grid1.coords t) (fun h => h0 ((hcondFirst t).mp h)) ((hcondLast t).mpr h3) _ _ _ _ _ _ _ _ (iblk V c 0 t) (iblk V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnl : ¬condLast (grid1.coords t) := fun h => h3 ((hcondLast t).mp h)
    rw [Dat.leavesExact_idle (dat V c) 2 t (idle_2 t hnl) (noFlush_2 t hnl)]
    by_cases h0 : t.val % 4 = 0
    · -- the first key block of its group
      rw [accAt_first V c t h0]
      by_cases hz : t.val = 0
      · rw [PhiS_castSucc V c t, PhiS_zero V c _ _ hz]
        iintro ⟨HΦ, Ho, ⟨%d0, H0⟩, ⟨%d1, H1⟩, H2⟩
        ihave HΦ' := (PhiA_split (F := F) c) $$ HΦ
        icases HΦ' with ⟨HS, Hr, Hg⟩
        iapply (kernel_first c Set.univ (grid1.coords t) ((hcondFirst t).mpr h0) hnl _ _ _ _ _ _ _ _ (iblk V c 0 t) (iblk V c 1 t) _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexact H2
      · rw [PhiS_castSucc V c t, PhiS_pos V c _ _ hz]
        iintro ⟨⟨HS, Hr, Hg⟩, Ho, ⟨%d0, H0⟩, ⟨%d1, H1⟩, H2⟩
        iapply (kernel_first c Set.univ (grid1.coords t) ((hcondFirst t).mpr h0) hnl _ _ _ _ _ _ _ _ (iblk V c 0 t) (iblk V c 1 t) _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexact H2
    · -- a middle key block
      have hz : t.val ≠ 0 := by omega
      rw [accAt_next V c t h0, PhiS_castSucc V c t, PhiS_pos V c _ _ hz]
      iintro ⟨⟨HS, Hr, Hg⟩, Ho, ⟨%d0, H0⟩, ⟨%d1, H1⟩, H2⟩
      iapply (kernel_mid c Set.univ (grid1.coords t) (fun h => h0 ((hcondFirst t).mp h)) hnl _ _ _ _ _ _ _ _ (iblk V c 0 t) (iblk V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point; -/
theorem hin (c : Dev nD) : Pipeline.ΦA spec1 c ⊢ (dat V c).Φ 0 := by
  rw [show (dat V c).Φ 0 = PhiS V c 0 (Nat.zero_le _) from rfl, PhiS_zero V c 0 _ rfl]

/-- and after the last point the invariant gives it back, the scratch's contents forgotten. -/
theorem hout (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl, PhiS_pos V c _ _ ht]
  iintro ⟨HS, Hr, Hg⟩
  iapply (PhiA_join (F := F) c)
  isplitl [HS]; · iexists _; iexact HS
  isplitl [Hr]; · iexact Hr
  iexact Hg

end Cert.Kernel.Attn

end
-- ==== Proof.KernelRun.lean ====
/-
  The whole run of the program: the weight's transposition on the host, then the two kernel regions.

  The contents of every unscoped buffer are followed through the three items: at launch; after the
  transposition; after the first region, whose two output arrays hold what its write-backs left and every
  other buffer what it held; after the second region likewise. Each region is entered from exactly the
  contents the item before it left, so the program's run ends with every unscoped buffer at the last of these
  contents: the four argument arrays as launched, and the result array at what the second region's
  write-backs left in it.
-/
import proofs.«160731_j26345329393796_1_alg».proof.Proof.KernelRope
import proofs.«160731_j26345329393796_1_alg».proof.Proof.KernelAttn

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host transposition (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Rope.dat (V1 m) c).arrAt w cfg0.N
theorem W2_arr (c : Dev nD) (w : Fin cfg0.W) :
    W2 m c (Proc.devRef .tc (Pipeline.arrRef spec0 w)) = (Rope.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Rope.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit, likewise. -/
def W3 (c : Dev nD) : Valuation τ sig (Elt F) :=
  Pipeline.withArrays spec1 c (W2 m c) fun w => (Attn.dat (V2 m) c).arrAt w cfg1.N
theorem W3_arr (c : Dev nD) (w : Fin cfg1.W) :
    W3 m c (Proc.devRef .tc (Pipeline.arrRef spec1 w)) = (Attn.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Attn.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched, and the result at what the second region leaves -/

/-- The host transposition writes only its own result. -/
theorem W1_of_ne (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Rope.dat (V1 m) c).arrAt_in 0 rfl _).trans (Rope.A_eq (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((Rope.dat (V1 m) c).arrAt_in 1 rfl _).trans (Rope.A_eq (V1 m) c 1))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((Rope.dat (V1 m) c).arrAt_in 2 rfl _).trans (Rope.A_eq (V1 m) c 2))
    _ = W0 m c (Proc.devRef .tc main_arg3) := W1_of_ne m c main_arg3 (by decide)
    _ = m ((c : Thread nD τ).loc main_arg3) := rfl
theorem W3_main_v2 (c : Dev nD) : W3 m c (Proc.devRef .tc main_v2) = (Attn.dat (V2 m) c).arrAt 2 cfg1.N :=
  W3_arr m c 2

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Rope.dat (V1 m) c
  | ⟨1, _⟩ => fun c => Attn.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered with every unscoped buffer at `W1`, left at `W2`. Its arrays are split out of the
    unscoped buffers and put back at the exit contents; the generator register goes into the invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rope.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left at `W3`. The invariant is handed the
    scratch at anything and gives it back with its contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Attn.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run, read at the result and the arguments: the result array ends at what the second region's write-backs
    leave in it, and the four argument arrays end as launched. -/
theorem run : θ_run defs (onTc (τ := τ) (main (F := F))) ⟨m, fun _ => 0, ρ⟩ (fun r => ∀ c : Dev nD,
      r.2.mem ((c.tc : Thread nD τ).loc main_v2) = (Attn.dat (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame: the program runs to the end and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Run

end
-- ==== Proof.KernelIdealRope.lean ====
/-
  The first kernel region (the rotary embedding and the query projection), at any float instance.

  The grid has 16 points `(b, i)`; at a point the body is handed one block of 512 rows of each of the
  activations, the cosine table and the sine table, and the whole transposed weight, and fills two
  output blocks of 512 rows: the embedded rows and their projection. Nothing is kept from point to point.
  This module states what the body leaves in the two output blocks as a function of the four input
  blocks, proves the body's triple, and packages it as the region's proof data: every input buffer holds
  its array's block at the point (fetched there or carried over), every output buffer the body's result.
-/
import proofs.«160731_j26345329393796_1_alg».proof.Proof.Gen.KernelIdeal.Launch
import proofs.«160731_j26345329393796_1_alg».proof.Proof.Gen.KernelIdeal.Skeleton
import proofs.«160731_j26345329393796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether or not the point fetched it: an unfetched
    block is the previous point's, which has the same index. One statement per input window. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rA : Rect S1x512x1024 := Rect.unit (s := S1x512x1024) ![0, 0, 0] S1x512x1024.size inb_S1x512x1024_S1x512x1024_0_0_0
abbrev rT : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the embedded-rows block: its one store, of the embedding of the three loaded blocks. -/
def outH (x0 : Vec F S1x512x1024 .f32) (x1 x2 : Vec F S512x1024 .f32) : Vec F S1x512x1024 .bf16 :=
  View.canon [⟨rA, k0_pay2 (View.ld x0 rA) (View.ld x1 rT) (View.ld x2 rT)⟩]

/-- What the body leaves in the projected-rows block: its one store, of the projection of the embedding. -/
def outQ (x0 : Vec F S1x512x1024 .f32) (x1 x2 : Vec F S512x1024 .f32) (x3 : Vec F S1024x1024 .f32) : Vec F S1x512x1024 .bf16 :=
  View.canon [⟨rA, k0_pay3 (View.ld x0 rA) (View.ld x1 rT) (View.ld x2 rT) (View.ld x3 rW)⟩]

/-- One whole-buffer store covers the buffer. -/
theorem coverA (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

/-! ## The body's triple -/

set_option maxHeartbeats 2000000 in
/-- The body on whole buffers, the four inputs' at contents `x0 … x3` and the outputs' at anything, runs to the
    continuation with the inputs' as they were and the outputs' at `outH`, `outQ` of them. -/
theorem sound_kernel (c : Dev nD) (E : Set ℕ) (i : grid0.Coords)
    (arg2 : Memref sig .tc .vmem S1x512x1024 .f32) (harg2 : arg2.IsWhole) (arg3 : Memref sig .tc .vmem S512x1024 .f32) (harg3 : arg3.IsWhole)
    (arg4 : Memref sig .tc .vmem S512x1024 .f32) (harg4 : arg4.IsWhole) (arg5 : Memref sig .tc .vmem S1024x1024 .f32) (harg5 : arg5.IsWhole)
    (arg6 : Memref sig .tc .vmem S1x512x1024 .bf16) (harg6 : arg6.IsWhole) (arg7 : Memref sig .tc .vmem S1x512x1024 .bf16) (harg7 : arg7.IsWhole)
    (x0 : Vec F S1x512x1024 .f32) (x1 x2 : Vec F S512x1024 .f32) (x3 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outH x0 x1 x2)
            ∗ owns (c : Thread nD τ) arg7 fullShare (outQ x0 x1 x2 x3)) -∗ K ⟨⟩))
      ⊢ wp frame (wpE (defs₀ (F := F)) Variants.none c none) E (cc0__rope_proj_kernel i arg2 harg2 arg3 harg3 arg4 harg4 arg5 harg5 arg6 harg6 arg7 harg7) K := by
  simp only [cc0__rope_proj_kernel_eq_skeleton]; unfold cc0__rope_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  iexists _; isplitr
  swap; · iexact H5
  ipureintro
  exact View.read_writes_eq_canon _ _ _ (coverA _)

/-! ## The region's proof data -/

/-- The arrays as the region finds them; after the body at point `t` every input buffer at its block and the two
    output buffers at the body's results of the input blocks; the invariant holds only what the body never
    touches (the other regions' scoped buffers and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outH (iblk V c 0 t) (iblk V c 1 t) (iblk V c 2 t)
    | ⟨5, _⟩ => outQ (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outH (iblk V c 0 t) (iblk V c 1 t) (iblk V c 2 t) := by dsimp only [dat]
theorem after_5 (c : Dev nD) (t : Fin cfg0.N) : (dat V c).after 5 t = outQ (iblk V c 0 t) (iblk V c 1 t) (iblk V c 2 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Rope

end
-- ==== Proof.KernelIdealAttn.lean ====
/-
  The second kernel region (scores against keys, then scores against values, accumulated over key blocks),
  at any float instance.

  The grid has 32 points `(b, i, k)`, `k` innermost. At a point the body is handed the block of 1024 query
  rows `i` and the block of 1024 key rows `k` of batch `b`; it keeps a running sum in a scratch buffer:
  at `k = 0` the scratch is cleared first; at every `k` the product (queries · keysᵀ) · keys of the two blocks
  is added to it; at `k = 3` the scratch is copied into the output block, which is written back there and
  nowhere else. So the scratch after point `n` is a recursion on `n` within each group of four points.
-/
import proofs.«160731_j26345329393796_1_alg».proof.Proof.Gen.KernelIdeal.Launch
import proofs.«160731_j26345329393796_1_alg».proof.Proof.Gen.KernelIdeal.Skeleton
import proofs.«160731_j26345329393796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "this is the first key block": the body's first branch condition, from the grid coordinates. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- "this is the last key block": the body's second branch condition. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-- The output window is idle, and not written back, exactly off the last key block; the inputs are never idle. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem live_2 : ∀ t : Fin cfg1.N, condLast (grid1.coords t) → cfg1.idle 2 (grid1.coords t) = false := by decide +kernel

/-! ## The body's accesses: every load and store is of a whole buffer -/

abbrev rB : Rect S1x1024x1024 := Rect.unit (s := S1x1024x1024) ![0, 0, 0] S1x1024x1024.size inb_S1x1024x1024_S1x1024x1024_0_0_0
abbrev rS : Rect S1024x1024 := Rect.unit (s := S1024x1024) ![0, 0] S1024x1024.size inb_S1024x1024_S1024x1024_0_0

/-- The scratch's staging memref and view. -/
abbrev scM : Memref sig .tc .vmem S1024x1024 .f32 := Memref.whole cc1_scratch0

/-- The cleared scratch. -/
def zeroS : Vec F S1024x1024 .f32 := k1_pay1 (F := F)
/-- The scratch after one accumulation step over contents `xs`, from the query block `x0` and the key block `x1`. -/
def stepS (x0 x1 : Vec F S1x1024x1024 .bf16) (xs : Vec F S1024x1024 .f32) : Vec F S1024x1024 .f32 :=
  k1_pay2 x0 x1 xs
/-- The output block at the last key block: the scratch, re-shaped. -/
def outO (xs : Vec F S1024x1024 .f32) : Vec F S1x1024x1024 .f32 :=
  k1_pay3 xs

theorem coverS (p0 : Vec F S1024x1024 .f32) (y : S1024x1024.Idx) :
    ∃ pc ∈ ([⟨rS, p0⟩] : List (View.Piece (Elt F) S1024x1024 .f32)), y ∈ pc.1.set :=
  View.cover_of_tiled [⟨rS, p0⟩] S1024x1024.size (by rfl) y
theorem coverB (p0 : Vec F S1x1024x1024 .f32) (y : S1x1024x1024.Idx) :
    ∃ pc ∈ ([⟨rB, p0⟩] : List (View.Piece (Elt F) S1x1024x1024 .f32)), y ∈ pc.1.set :=
  View.cover_of_tiled [⟨rB, p0⟩] S1x1024x1024.size (by rfl) y

/-! ## Whole-buffer accesses read and leave exactly their contents -/

theorem hz2 : (![0, 0] : Fin 2 → Nat) = fun _ => 0 := by funext a; fin_cases a <;> rfl
theorem hz3 : (![0, 0, 0] : Fin 3 → Nat) = fun _ => 0 := by funext a; fin_cases a <;> rfl

section Whole
variable {sg : RefSig} {κ : Kind} {sp : Space} {S : Shape} {e : EltTy}

/-- After a store of the whole buffer, the buffer reads the stored value, whatever was stored before. -/
theorem read_whole_store (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole buffer reads the buffer. -/
theorem readAt_whole (v : View sg κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero h inb (v.read (Elt F) f)

/-- A load of the whole buffer after a store of the whole buffer reads the stored value. -/
theorem readCov_whole (v : View sg κ sp S e) {off : Fin S.rank → Nat}
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect (Val := Elt F) v (Rect.unit off S.size inb) w L
end Whole

/-! ## The body's triple, case by case -/

set_option maxHeartbeats 2000000 in
/-- First key block: the scratch, at anything, ends at one step over the cleared scratch; the output buffer is not touched. -/
theorem kernel_first (c : Dev nD) (E : Set ℕ) (i : grid1.Coords) (hc1 : condFirst i) (hc2 : ¬condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
            ∗ owns (c : Thread nD τ) arg6 fullShare (stepS x0 x1 (zeroS (F := F)))) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d6, %f6, -, H6⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [read_whole_store _ _ hz2, readAt_whole _ _ hz3, readAt_whole _ _ hz3, readCov_whole]
  rfl

set_option maxHeartbeats 2000000 in
/-- A middle key block: the scratch at `xs` ends one step further; the output buffer is not touched. -/
theorem kernel_mid (c : Dev nD) (E : Set ℕ) (i : grid1.Coords) (hc1 : ¬condFirst i) (hc2 : ¬condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg6 fullShare xs
        ∗ (iprop(owns (c : Thread nD τ) arg3 fullShare x0 ∗ owns (c : Thread nD τ) arg4 fullShare x1
            ∗ owns (c : Thread nD τ) arg6 fullShare (stepS x0 x1 xs)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [read_whole_store _ _ hz2, readAt_whole _ _ hz3, readAt_whole _ _ hz3, readAt_whole _ _ hz2]
  rfl

set_option maxHeartbeats 2000000 in
/-- Last key block: the scratch at `xs` ends one step further, and the output buffer, at anything, ends at its copy. -/
theorem kernel_last (c : Dev nD) (E : Set ℕ) (i : grid1.Coords) (hc1 : ¬condFirst i) (hc2 : condLast i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .f32) (harg5 : arg5.IsWhole) (arg6 : Memref sig .tc .vmem S1024x1024 .f32) (harg6 : arg6.IsWhole)
    (x0 x1 : Vec F S1x1024x1024 .bf16) (xs : Vec F S1024x1024 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (outO (stepS x0 x1 xs))
            ∗ owns (c : Thread nD τ) arg6 fullShare (stepS x0 x1 xs)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%d5, %f5, -, H5⟩, ⟨%f6, %hf6, H6⟩, Hk⟩
  subst hf0; subst hf1; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    rw [read_whole_store _ _ hz3, readCov_whole, readAt_whole _ _ hz3, readAt_whole _ _ hz3, readAt_whole _ _ hz2]
    rfl
  iexists _; isplitr
  swap; · iexact H6
  ipureintro
  sl_unfold_run_names
  rw [read_whole_store _ _ hz2, readAt_whole _ _ hz3, readAt_whole _ _ hz3, readAt_whole _ _ hz2]
  rfl

/-! ## The scratch after each point -/

/-- The running sum. At position `n` the scratch holds: one step over the cleared scratch at the first key block of a
    group of four points; one step over what the point before left, otherwise. -/
def accAt (c : Dev nD) : (n : ℕ) → n < cfg1.N → Vec F S1024x1024 .f32
  | 0, hn => stepS (iblk V c 0 ⟨0, hn⟩) (iblk V c 1 ⟨0, hn⟩) (zeroS (F := F))
  | n + 1, hn =>
    if (n + 1) % 4 = 0 then stepS (iblk V c 0 ⟨n + 1, hn⟩) (iblk V c 1 ⟨n + 1, hn⟩) (zeroS (F := F))
    else stepS (iblk V c 0 ⟨n + 1, hn⟩) (iblk V c 1 ⟨n + 1, hn⟩) (accAt c n (Nat.lt_of_succ_lt hn))

theorem accAt_first (c : Dev nD) (t : Fin cfg1.N) (h0 : t.val % 4 = 0) :
    accAt V c t.val t.isLt = stepS (iblk V c 0 t) (iblk V c 1 t) (zeroS (F := F)) := by
  obtain ⟨n, hn⟩ := t
  cases n with
  | zero => rfl
  | succ n => exact if_pos h0

theorem accAt_next (c : Dev nD) (t : Fin cfg1.N) (h0 : ¬t.val % 4 = 0) :
    accAt V c t.val t.isLt = stepS (iblk V c 0 t) (iblk V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The region's invariant -/

/-- The scoped buffers of the other region, each at anything: what the body never touches. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- What the region is handed is the scratch at anything, the other region's buffers, and the generator register; -/
theorem PhiA_split (c : Dev nD) :
    (Pipeline.ΦA spec1 c : sProp 𝕄) ⊢ iprop((∃ d, owns (c : Thread nD τ) scM fullShare d) ∗ others (F := F) c ∗ (∃ r, prngReg c r)) := by
  unfold Pipeline.ΦA others; rw [scopedRest1_eq]; simp only [scM, owns_whole]
  iintro ⟨⟨A0, A1, A2, A3, A4, A5, A6, A7, A8, A9, A10, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexact Hg

/-- and the same three give it back. -/
theorem PhiA_join (c : Dev nD) :
    iprop((∃ d, owns (c : Thread nD τ) scM fullShare d) ∗ others (F := F) c ∗ (∃ r, prngReg c r)) ⊢ (Pipeline.ΦA spec1 c : sProp 𝕄) := by
  unfold Pipeline.ΦA others; rw [scopedRest1_eq]; simp only [scM, owns_whole]
  iintro ⟨HS, ⟨A0, A1, A2, A3, A4, A5, A6, A7, A8, A9, A10⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact HS
  iexact Hg

/-- The invariant before position `n`: before the first point what the region is handed; afterwards the scratch at
    what the point before left in it, beside the untouched rest. -/
def PhiS (c : Dev nD) : (n : ℕ) → n ≤ cfg1.N → sProp 𝕄
  | 0, _ => Pipeline.ΦA spec1 c
  | n + 1, hn => iprop(owns (c : Thread nD τ) scM fullShare (accAt V c n hn) ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ others (F := F) c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ others (F := F) c ∗ (∃ r, prngReg c r)) := by
  cases n with
  | zero => exact absurd rfl hz
  | succ n => rfl

/-! ## The region's proof data -/

/-- The arrays as the region finds them; after the body every input buffer at its block, and the output buffer at
    the copy of the scratch (consulted only at the last key block of a group, where the body stores it and the
    block is written back); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outO (accAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outO (accAt V c t.val t.isLt) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by the point's place in its group of four: the invariant hands the body the scratch at what
    the point before left (at anything before the first point) and takes it back one step further; off the last key
    block the output buffer passes through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 32 := lt_of_lt_of_eq t.isLt (show cfg1.N = 32 from N_1)
  by_cases h3 : t.val % 4 = 3
  · -- the last key block of its group
    have h0 : ¬t.val % 4 = 0 := by omega
    have hz : t.val ≠ 0 := by omega
    rw [show (dat V c).leavesExact 2 t = owns (c : Thread nD τ) (st1_2 t) fullShare ((dat V c).after 2 t) from by
      unfold Dat.leavesExact; rw [live_2 t ((hcondLast t).mpr h3)], after_2]
    rw [accAt_next V c t h0, PhiS_castSucc V c t, PhiS_pos V c _ _ hz]
    iintro ⟨⟨HS, Hr, Hg⟩, Ho, ⟨%d0, H0⟩, ⟨%d1, H1⟩, ⟨%d2, H2⟩⟩
    iapply (kernel_last c Set.univ (grid1.coords t) (fun h => h0 ((hcondFirst t).mp h)) ((hcondLast t).mpr h3) _ _ _ _ _ _ _ _ (iblk V c 0 t) (iblk V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnl : ¬condLast (grid1.coords t) := fun h => h3 ((hcondLast t).mp h)
    rw [Dat.leavesExact_idle (dat V c) 2 t (idle_2 t hnl) (noFlush_2 t hnl)]
    by_cases h0 : t.val % 4 = 0
    · -- the first key block of its group
      rw [accAt_first V c t h0]
      by_cases hz : t.val = 0
      · rw [PhiS_castSucc V c t, PhiS_zero V c _ _ hz]
        iintro ⟨HΦ, Ho, ⟨%d0, H0⟩, ⟨%d1, H1⟩, H2⟩
        ihave HΦ' := (PhiA_split (F := F) c) $$ HΦ
        icases HΦ' with ⟨HS, Hr, Hg⟩
        iapply (kernel_first c Set.univ (grid1.coords t) ((hcondFirst t).mpr h0) hnl _ _ _ _ _ _ _ _ (iblk V c 0 t) (iblk V c 1 t) _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexact H2
      · rw [PhiS_castSucc V c t, PhiS_pos V c _ _ hz]
        iintro ⟨⟨HS, Hr, Hg⟩, Ho, ⟨%d0, H0⟩, ⟨%d1, H1⟩, H2⟩
        iapply (kernel_first c Set.univ (grid1.coords t) ((hcondFirst t).mpr h0) hnl _ _ _ _ _ _ _ _ (iblk V c 0 t) (iblk V c 1 t) _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexact H2
    · -- a middle key block
      have hz : t.val ≠ 0 := by omega
      rw [accAt_next V c t h0, PhiS_castSucc V c t, PhiS_pos V c _ _ hz]
      iintro ⟨⟨HS, Hr, Hg⟩, Ho, ⟨%d0, H0⟩, ⟨%d1, H1⟩, H2⟩
      iapply (kernel_mid c Set.univ (grid1.coords t) (fun h => h0 ((hcondFirst t).mp h)) hnl _ _ _ _ _ _ _ _ (iblk V c 0 t) (iblk V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point; -/
theorem hin (c : Dev nD) : Pipeline.ΦA spec1 c ⊢ (dat V c).Φ 0 := by
  rw [show (dat V c).Φ 0 = PhiS V c 0 (Nat.zero_le _) from rfl, PhiS_zero V c 0 _ rfl]

/-- and after the last point the invariant gives it back, the scratch's contents forgotten. -/
theorem hout (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl, PhiS_pos V c _ _ ht]
  iintro ⟨HS, Hr, Hg⟩
  iapply (PhiA_join (F := F) c)
  isplitl [HS]; · iexists _; iexact HS
  isplitl [Hr]; · iexact Hr
  iexact Hg

end Cert.KernelIdeal.Attn

end
-- ==== Proof.KernelIdealRun.lean ====
/-
  The whole run of the program: the weight's transposition on the host, then the two kernel regions.

  The contents of every unscoped buffer are followed through the three items: at launch; after the
  transposition; after the first region, whose two output arrays hold what its write-backs left and every
  other buffer what it held; after the second region likewise. Each region is entered from exactly the
  contents the item before it left, so the program's run ends with every unscoped buffer at the last of these
  contents: the four argument arrays as launched, and the result array at what the second region's
  write-backs left in it.
-/
import proofs.«160731_j26345329393796_1_alg».proof.Proof.KernelIdealRope
import proofs.«160731_j26345329393796_1_alg».proof.Proof.KernelIdealAttn

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host transposition (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (Rope.dat (V1 m) c).arrAt w cfg0.N
theorem W2_arr (c : Dev nD) (w : Fin cfg0.W) :
    W2 m c (Proc.devRef .tc (Pipeline.arrRef spec0 w)) = (Rope.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Rope.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit, likewise. -/
def W3 (c : Dev nD) : Valuation τ sig (Elt F) :=
  Pipeline.withArrays spec1 c (W2 m c) fun w => (Attn.dat (V2 m) c).arrAt w cfg1.N
theorem W3_arr (c : Dev nD) (w : Fin cfg1.W) :
    W3 m c (Proc.devRef .tc (Pipeline.arrRef spec1 w)) = (Attn.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Attn.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched, and the result at what the second region leaves -/

/-- The host transposition writes only its own result. -/
theorem W1_of_ne (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((Rope.dat (V1 m) c).arrAt_in 0 rfl _).trans (Rope.A_eq (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 1).trans (((Rope.dat (V1 m) c).arrAt_in 1 rfl _).trans (Rope.A_eq (V1 m) c 1))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((Rope.dat (V1 m) c).arrAt_in 2 rfl _).trans (Rope.A_eq (V1 m) c 2))
    _ = W0 m c (Proc.devRef .tc main_arg3) := W1_of_ne m c main_arg3 (by decide)
    _ = m ((c : Thread nD τ).loc main_arg3) := rfl
theorem W3_main_v2 (c : Dev nD) : W3 m c (Proc.devRef .tc main_v2) = (Attn.dat (V2 m) c).arrAt 2 cfg1.N :=
  W3_arr m c 2

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Rope.dat (V1 m) c
  | ⟨1, _⟩ => fun c => Attn.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region: entered with every unscoped buffer at `W1`, left at `W2`. Its arrays are split out of the
    unscoped buffers and put back at the exit contents; the generator register goes into the invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Rope.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left at `W3`. The invariant is handed the
    scratch at anything and gives it back with its contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Attn.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run, read at the result and the arguments: the result array ends at what the second region's write-backs
    leave in it, and the four argument arrays end as launched. -/
theorem run : θ_run defs (onTc (τ := τ) (main (F := F))) ⟨m, fun _ => 0, ρ⟩ (fun r => ∀ c : Dev nD,
      r.2.mem ((c.tc : Thread nD τ).loc main_v2) = (Attn.dat (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The frame: the program runs to the end and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Run

end
-- ==== Proof.KernelIdealAttnPayload.lean ====
/-
  The three values the attention body stores, read entry by entry over the extended reals, and the law that a
  sum over 4096 positions is the sum of its four consecutive stretches of 1024 positions.

  The body holds a block of 1024 query rows `Q[p, j]` and a block of 1024 key rows `K[m, j]` (each handed over
  with a leading axis of extent one) and a running sum `S[p, q]`.
  * The cleared running sum is `0` at every entry.
  * One step adds to `S[p, q]` the entry `(p, q)` of `(Q · Kᵀ) · K`: first the scores
    `s[p, m] = Σ_j Q[p, j] * K[m, j]` (both blocks contracted along their channels), then
    `Σ_m s[p, m] * K[m, q]`. Changing the float format of the scores between the two products is the identity
    on the extended reals, and a product accumulated onto the zero array is the plain sum.
  * The stored block is the running sum with the leading unit axis put back.
-/
import proofs.«160731_j26345329393796_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AttnPayload

open Idealize.ShloMosaic Idealize.ShloMosaic.ValueIdx
open Cert.KernelIdeal Cert.KernelIdeal.Gen

/-! ## The two products at an entry -/

/-- Off the contracted axis the scores' left operand is read at the entry's row … -/
theorem scores_lhs_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the right operand at the row named by the entry's column. -/
theorem scores_rhs_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The plain product reads its left operand in the entry's row … -/
theorem values_lhs_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and its right operand in the entry's column. -/
theorem values_rhs_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The scores: both operands contracted along their second axis, `s[p, m] = Σ_j a[p, j] * b[m, j]`. -/
theorem scores_apply (a b : FVec Ideal S1024x1024 .bf16) (p m : Fin 1024) :
    (matmul dot_S1024x1024_S1024x1024_S1024x1024_1_1_0_0_n_n none a b (constant (F := Ideal) S1024x1024 .f32 0x00000000#32) : S1024x1024.Idx → EReal) (ix2 p m)
      = ∑ j : Fin 1024, a (ix2 p j) * b (ix2 m j) := by
  refine (Ideal.matmul_constant_zero_apply dot_S1024x1024_S1024x1024_S1024x1024_1_1_0_0_n_n none a b (ix2 p m)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p m) ((contrEquiv1 dot_S1024x1024_S1024x1024_S1024x1024_1_1_0_0_n_n 1024 rfl rfl).symm k) = ix2 p k := funext fun ax => Fin.ext (by
    match ax with
    | ⟨0, _⟩ => exact scores_lhs_0 _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p m) ((contrEquiv1 dot_S1024x1024_S1024x1024_S1024x1024_1_1_0_0_n_n 1024 rfl rfl).symm k) = ix2 m k := funext fun ax => Fin.ext (by
    match ax with
    | ⟨0, _⟩ => exact scores_rhs_0 _ _
    | ⟨1, _⟩ => exact (dot_S1024x1024_S1024x1024_S1024x1024_1_1_0_0_n_n.rhsIdx_val_of_single rfl _ _).trans hk)
  rw [el, er]

/-- The plain product, `Σ_m a[p, m] * b[m, q]`. -/
theorem values_apply (a b : FVec Ideal S1024x1024 .bf16) (p q : Fin 1024) :
    (matmul dot_S1024x1024_S1024x1024_S1024x1024_1_0_0_1_n_n none a b (constant (F := Ideal) S1024x1024 .f32 0x00000000#32) : S1024x1024.Idx → EReal) (ix2 p q)
      = ∑ m : Fin 1024, a (ix2 p m) * b (ix2 m q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact values_lhs_0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (dot_S1024x1024_S1024x1024_S1024x1024_1_0_0_1_n_n.rhsIdx_val_of_single rfl _ _).trans hk
    | ⟨1, _⟩ => exact values_rhs_1 _ _)
  rw [el, er]

/-! ## The three stored values at an entry -/

/-- The cleared running sum is zero everywhere. -/
theorem zero_apply (p q : Fin 1024) :
    (k1_pay1 (F := Ideal) : S1024x1024.Idx → EReal) (ix2 p q) = 0 := by
  unfold k1_pay1
  rw [shapeCast_self]
  exact Ideal.ofBits_zero_f32

/-- One step: the running sum plus `Σ_m (Σ_j Q[p, j] * K[m, j]) * K[m, q]`. -/
theorem step_apply (x0 x1 : FVec Ideal S1x1024x1024 .bf16) (xs : FVec Ideal S1024x1024 .f32) (p q : Fin 1024) :
    (k1_pay2 (F := Ideal) x0 x1 xs : S1024x1024.Idx → EReal) (ix2 p q)
      = xs (ix2 p q) + ∑ m : Fin 1024, (∑ j : Fin 1024, x0 (ix3 (0 : Fin 1) p j) * x1 (ix3 (0 : Fin 1) m j)) * x1 (ix3 (0 : Fin 1) m q) := by
  unfold k1_pay2
  rw [shapeCast_self]
  refine congrArg (xs (ix2 p q) + ·) ?_
  refine (values_apply _ _ p q).trans ?_
  refine Finset.sum_congr rfl fun m _ => ?_
  rw [shapeCast_1ab_ab_apply]
  refine congrArg (· * x1 (ix3 (0 : Fin 1) m q)) ?_
  refine (scores_apply _ _ p m).trans ?_
  refine Finset.sum_congr rfl fun j _ => ?_
  rw [shapeCast_1ab_ab_apply, shapeCast_1ab_ab_apply]

/-- The stored block is the running sum under a leading unit axis. -/
theorem out_apply (xs : FVec Ideal S1024x1024 .f32) (p q : Fin 1024) :
    (k1_pay3 (F := Ideal) xs : S1x1024x1024.Idx → EReal) (ix3 (0 : Fin 1) p q) = xs (ix2 p q) := by
  unfold k1_pay3
  exact shapeCast_ab_1ab_apply xs _ (0 : Fin 1) p q

/-! ## A sum over 4096 positions, stretch by stretch -/

/-- In any additive commutative monoid a sum over `Fin 4096` is the sum of its four stretches of 1024,
    added one after the other onto zero. -/
theorem sum_four_blocks (f : Fin 4096 → EReal) :
    0 + (∑ m : Fin 1024, f ⟨m.val, by omega⟩) + (∑ m : Fin 1024, f ⟨1024 + m.val, by omega⟩)
        + (∑ m : Fin 1024, f ⟨2048 + m.val, by omega⟩) + (∑ m : Fin 1024, f ⟨3072 + m.val, by omega⟩)
      = ∑ m : Fin 4096, f m := by
  rw [zero_add]
  symm
  rw [← Fin.sum_congr' f (show 1024 + 1024 + 1024 + 1024 = 4096 from rfl), Fin.sum_univ_add, Fin.sum_univ_add,
    Fin.sum_univ_add]
  rfl

end Cert.KernelIdeal.AttnPayload

end
-- ==== Proof.KernelIdealAttnValue.lean ====
/-
  What the second region leaves in the result array, at the ideal instance.

  The result block of query rows `i` of batch `b` is written back once, at the last of the four key blocks, and
  holds the running sum: zero, plus for each key block `k` the products (query row · key row `m`) · (key row `m`)
  summed over the 1024 rows `m` of that block. Four blocks of 1024 rows are the 4096 rows, so the entry at
  `(b, l, q)` is the sum over ALL key rows `m` of (Σ_j Q[b,l,j]·H[b,m,j])·H[b,m,q]; the blocks written back tile
  the array.
-/
import proofs.«160731_j26345329393796_1_alg».proof.Proof.KernelIdealAttn
import proofs.«160731_j26345329393796_1_alg».proof.Proof.KernelIdealAttnPayload

import Idealize.ShloMosaic.Lib.ValueIdx
import Idealize.ShloMosaic.Lib.Pipeline.Value

set_option maxRecDepth 16384

noncomputable section

open scoped BigOperators

namespace Cert.KernelIdeal.AttnValue

open Idealize.ShloMosaic Idealize.ShloMosaic.TcCoe Idealize.SL.Sem
open Idealize.ShloMosaic.Pipeline (Dat Cfg Window)
open Cert.KernelIdeal Cert.KernelIdeal.Gen Cert.KernelIdeal.Attn Idealize.ShloMosaic.ValueIdx

variable (V : (c : Dev nD) → (b : Ref sig .tc) → Buf (Elt Ideal) ((c : Thread nD τ).loc b))

/-- One key row's contribution to entry `(b, l, q)`: the score of query row `l` against key row `m`, times the
    key row's channel `q`. -/
def term (Q Hh : S2x4096x1024.Idx → EReal) (b : Fin 2) (l : Fin 4096) (q : Fin 1024) (m : Fin 4096) : EReal :=
  (∑ j : Fin 1024, Q (ix3 b l j) * Hh (ix3 b m j)) * Hh (ix3 b m q)

/-- The result array: every key row's contribution, summed. -/
def G (Q Hh : S2x4096x1024.Idx → EReal) : S2x4096x1024.Idx → EReal :=
  fun i => ∑ m : Fin 4096, term Q Hh (i 0) (i 1) (i 2) m

/-- The query block and the key block at a point, as arrays of extended reals. -/
def blkQ (c : Dev nD) (t : Fin cfg1.N) : Vec Ideal S1x1024x1024 .bf16 := iblk V c 0 t
def blkH (c : Dev nD) (t : Fin cfg1.N) : Vec Ideal S1x1024x1024 .bf16 := iblk V c 1 t

/-! ## Where the blocks sit -/

/-- The three windows' block indices at point `t`: batch `t / 16`; query block `(t / 4) % 4` for the queries and
    the result; key block `t % 4` for the keys. -/
theorem idx_facts : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = (t.val / 4) % 4 ∧ win1_2.index t (2 : Fin 3) = 0 :=
  (by decide +kernel : ∀ t : Fin grid1.N, _)

/-- Every result block is written back at some point. -/
theorem idx_onto : ∀ (q0 : Fin 2) (q1 : Fin 4), ∃ t : Fin cfg1.N, (cfg1.win 2).flush t = true ∧ win1_2.index t = ![q0.val, q1.val, 0] :=
  (by decide +kernel : ∀ (q0 : Fin 2) (q1 : Fin 4), ∃ t : Fin grid1.N, win1_2.flush t = true ∧ win1_2.index t = ![q0.val, q1.val, 0])

/-- The query block at point `t`, read at a row and channel, is the query array at the block's row. -/
theorem blkQ_read (c : Dev nD) (t : Fin cfg1.N) (p j : Fin 1024) (b : Fin 2) (r : Fin 4096)
    (hb : b.val = t.val / 16) (hr : r.val = 1024 * ((t.val / 4) % 4) + p.val) :
    blkQ V c t (ix3 (0 : Fin 1) p j) = (V c main_v1_1 : S2x4096x1024.Idx → EReal) (ix3 b r j) := by
  show (V c main_v1_1 : S2x4096x1024.Idx → EReal) (((cfg1.win 0).blk t).view.emb (ix3 (0 : Fin 1) p j)) = _
  refine congrArg _ ?_
  obtain ⟨e0, e1, e2, -⟩ := idx_facts t
  funext a; apply Fin.ext
  match a with
  | ⟨0, _⟩ => show win1_0.index t (0 : Fin 3) * 1 + 1 * 0 = b.val; omega
  | ⟨1, _⟩ => show win1_0.index t (1 : Fin 3) * 1024 + 1 * p.val = r.val; omega
  | ⟨2, _⟩ => show win1_0.index t (2 : Fin 3) * 1024 + 1 * j.val = j.val; omega

/-- The key block at point `t`, likewise. -/
theorem blkH_read (c : Dev nD) (t : Fin cfg1.N) (p j : Fin 1024) (b : Fin 2) (r : Fin 4096)
    (hb : b.val = t.val / 16) (hr : r.val = 1024 * (t.val % 4) + p.val) :
    blkH V c t (ix3 (0 : Fin 1) p j) = (V c main_v1_0 : S2x4096x1024.Idx → EReal) (ix3 b r j) := by
  show (V c main_v1_0 : S2x4096x1024.Idx → EReal) (((cfg1.win 1).blk t).view.emb (ix3 (0 : Fin 1) p j)) = _
  refine congrArg _ ?_
  obtain ⟨-, -, -, e0, e1, e2, -⟩ := idx_facts t
  funext a; apply Fin.ext
  match a with
  | ⟨0, _⟩ => show win1_1.index t (0 : Fin 3) * 1 + 1 * 0 = b.val; omega
  | ⟨1, _⟩ => show win1_1.index t (1 : Fin 3) * 1024 + 1 * p.val = r.val; omega
  | ⟨2, _⟩ => show win1_1.index t (2 : Fin 3) * 1024 + 1 * j.val = j.val; omega

/-- Where an entry of the result block at point `t` sits in the result array. -/
theorem emb_out (t : Fin cfg1.N) (p q : Fin 1024) (b : Fin 2) (r : Fin 4096)
    (hb : b.val = t.val / 16) (hr : r.val = 1024 * ((t.val / 4) % 4) + p.val) :
    ((cfg1.win 2).blk t).view.emb (ix3 (0 : Fin 1) p q) = (ix3 b r q : S2x4096x1024.Idx) := by
  obtain ⟨-, -, -, -, -, -, e0, e1, e2⟩ := idx_facts t
  funext a; apply Fin.ext
  match a with
  | ⟨0, _⟩ => show win1_2.index t (0 : Fin 3) * 1 + 1 * 0 = b.val; omega
  | ⟨1, _⟩ => show win1_2.index t (1 : Fin 3) * 1024 + 1 * p.val = r.val; omega
  | ⟨2, _⟩ => show win1_2.index t (2 : Fin 3) * 1024 + 1 * q.val = q.val; omega

/-! ## The running sum at the last key block -/

/-- What one point adds to entry `(p, q)` of the scratch: its key block's rows against the query row. -/
def addend (c : Dev nD) (t : Fin cfg1.N) (p q : Fin 1024) : EReal :=
  ∑ m : Fin 1024, (∑ j : Fin 1024, blkQ V c t (ix3 (0 : Fin 1) p j) * blkH V c t (ix3 (0 : Fin 1) m j)) * blkH V c t (ix3 (0 : Fin 1) m q)

theorem stepS_apply (x0 x1 : Vec Ideal S1x1024x1024 .bf16) (xs : Vec Ideal S1024x1024 .f32) (p q : Fin 1024) :
    (stepS (F := Ideal) x0 x1 xs : S1024x1024.Idx → EReal) (ix2 p q)
      = xs (ix2 p q) + ∑ m : Fin 1024, (∑ j : Fin 1024, x0 (ix3 (0 : Fin 1) p j) * x1 (ix3 (0 : Fin 1) m j)) * x1 (ix3 (0 : Fin 1) m q) :=
  AttnPayload.step_apply x0 x1 xs p q

theorem accAt_succ (c : Dev nD) (n : ℕ) (hn : n + 1 < cfg1.N) (h0 : ¬(n + 1) % 4 = 0) :
    accAt V c (n + 1) hn = stepS (blkQ V c ⟨n + 1, hn⟩) (blkH V c ⟨n + 1, hn⟩) (accAt V c n (Nat.lt_of_succ_lt hn)) :=
  (if_neg h0).trans rfl

/-- At the last key block of a group the scratch holds zero plus the four points' addends, in order. -/
theorem acc_last (c : Dev nD) (n : ℕ) (hn : n + 3 < cfg1.N) (h0 : n % 4 = 0) (p q : Fin 1024) :
    (accAt V c (n + 3) hn : S1024x1024.Idx → EReal) (ix2 p q)
      = 0 + addend V c ⟨n, by omega⟩ p q + addend V c ⟨n + 1, by omega⟩ p q
          + addend V c ⟨n + 2, by omega⟩ p q + addend V c ⟨n + 3, hn⟩ p q := by
  rw [accAt_succ V c (n + 2) hn (by omega), stepS_apply, accAt_succ V c (n + 1) (by omega) (by omega), stepS_apply,
    accAt_succ V c n (by omega) (by omega), stepS_apply, accAt_first V c ⟨n, by omega⟩ h0, stepS_apply]
  unfold zeroS
  rw [AttnPayload.zero_apply]
  rfl

theorem outO_apply (xs : Vec Ideal S1024x1024 .f32) (p q : Fin 1024) :
    (outO (F := Ideal) xs : S1x1024x1024.Idx → EReal) (ix3 (0 : Fin 1) p q) = xs (ix2 p q) :=
  AttnPayload.out_apply xs p q

/-- One point's addend is its key block's share of the sum over all key rows. -/
theorem addend_eq (c : Dev nD) (t : Fin cfg1.N) (p q : Fin 1024) (b : Fin 2) (l : Fin 4096) (k : ℕ) (hk : k < 4)
    (hb : b.val = t.val / 16) (hl : l.val = 1024 * ((t.val / 4) % 4) + p.val) (hkt : t.val % 4 = k) :
    addend V c t p q = ∑ m : Fin 1024, term (V c main_v1_1) (V c main_v1_0) b l q ⟨1024 * k + m.val, by omega⟩ := by
  unfold addend term
  refine Finset.sum_congr rfl fun m _ => ?_
  rw [blkH_read V c t m q b ⟨1024 * k + m.val, by omega⟩ hb (by show 1024 * k + m.val = _; omega)]
  refine congrArg (· * _) ?_
  refine Finset.sum_congr rfl fun j _ => ?_
  rw [blkQ_read V c t p j b l hb hl, blkH_read V c t m j b ⟨1024 * k + m.val, by omega⟩ hb (by show 1024 * k + m.val = _; omega)]

/-! ## The block written back, and the array -/

/-- What a writing point writes back is its block of `G` of the two arrays the region reads. -/
theorem flushed_eq (c : Dev nD) (t : Fin cfg1.N) (hf : (cfg1.win 2).flush t = true) :
    (Attn.dat V c).flushed 2 t = ((cfg1.win 2).blk t).view.read (Elt Ideal) (G (V c main_v1_1) (V c main_v1_0)) := by
  have h3 : t.val % 4 = 3 := (flush1_2 t).mp hf
  have hN : t.val < 32 := lt_of_lt_of_eq t.isLt (show cfg1.N = 32 from N_1)
  clear hf
  obtain ⟨tv, ht⟩ := t
  obtain ⟨n, rfl⟩ : ∃ n, tv = n + 3 := ⟨tv - 3, by dsimp only at h3; omega⟩
  have h0 : n % 4 = 0 := by dsimp only at h3; omega
  have hn : n + 3 < 32 := hN
  show (cfg1.win 2).cut (grid1.coords ⟨n + 3, ht⟩) ((Attn.dat V c).after 2 ⟨n + 3, ht⟩) = _
  rw [Attn.after_2]
  funext y
  obtain ⟨z, p, q, rfl⟩ : ∃ (z : Fin 1) (p q : Fin 1024), y = ix3 z p q := ⟨y 0, y 1, y 2, eq_ix3 y⟩
  obtain rfl : z = 0 := Subsingleton.elim _ _
  show (outO (F := Ideal) (accAt V c (n + 3) ht) : S1x1024x1024.Idx → EReal) (ix3 (0 : Fin 1) p q)
    = G (V c main_v1_1) (V c main_v1_0) (((cfg1.win 2).blk ⟨n + 3, ht⟩).view.emb (ix3 (0 : Fin 1) p q))
  have hbv : (n + 3) / 16 < 2 := by omega
  have hlv : 1024 * (((n + 3) / 4) % 4) + p.val < 4096 := by have := p.isLt; omega
  rw [emb_out ⟨n + 3, ht⟩ p q ⟨(n + 3) / 16, hbv⟩ ⟨1024 * (((n + 3) / 4) % 4) + p.val, hlv⟩ rfl rfl, outO_apply, acc_last V c n ht h0 p q]
  show _ = ∑ m : Fin 4096, term (V c main_v1_1) (V c main_v1_0) ⟨(n + 3) / 16, hbv⟩ ⟨1024 * (((n + 3) / 4) % 4) + p.val, hlv⟩ q m
  rw [← AttnPayload.sum_four_blocks]
  rw [addend_eq V c ⟨n, by omega⟩ p q ⟨(n + 3) / 16, hbv⟩ ⟨1024 * (((n + 3) / 4) % 4) + p.val, hlv⟩ 0 (by omega)
        (by show (n + 3) / 16 = n / 16; omega) (by show 1024 * (((n + 3) / 4) % 4) + p.val = 1024 * ((n / 4) % 4) + p.val; omega) (by show n % 4 = 0; omega),
      addend_eq V c ⟨n + 1, by omega⟩ p q ⟨(n + 3) / 16, hbv⟩ ⟨1024 * (((n + 3) / 4) % 4) + p.val, hlv⟩ 1 (by omega)
        (by show (n + 3) / 16 = (n + 1) / 16; omega) (by show 1024 * (((n + 3) / 4) % 4) + p.val = 1024 * (((n + 1) / 4) % 4) + p.val; omega) (by show (n + 1) % 4 = 1; omega),
      addend_eq V c ⟨n + 2, by omega⟩ p q ⟨(n + 3) / 16, hbv⟩ ⟨1024 * (((n + 3) / 4) % 4) + p.val, hlv⟩ 2 (by omega)
        (by show (n + 3) / 16 = (n + 2) / 16; omega) (by show 1024 * (((n + 3) / 4) % 4) + p.val = 1024 * (((n + 2) / 4) % 4) + p.val; omega) (by show (n + 2) % 4 = 2; omega),
      addend_eq V c ⟨n + 3, ht⟩ p q ⟨(n + 3) / 16, hbv⟩ ⟨1024 * (((n + 3) / 4) % 4) + p.val, hlv⟩ 3 (by omega) rfl rfl (by show (n + 3) % 4 = 3; omega)]
  rfl

/-- An index of the array is in point `t`'s result block iff each coordinate is in the block's range. -/
theorem mem_blk (t : Fin cfg1.N) (i : S2x4096x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v2).slice (win1_2.rect t)).set ↔ _
  rw [View.set_slice_whole, Rect.mem_set_unit]
  exact Iff.rfl

/-- Every index of the result array is in some written-back block. -/
theorem cover (i : S2x4096x1024.Idx) :
    ∃ t : Fin cfg1.N, (cfg1.win 2).flush t = true ∧ i ∈ ((cfg1.win 2).blk t).view.set := by
  have hi0 : (i 0).val < 2 := (i 0).isLt
  have hi1 : (i 1).val < 4096 := (i 1).isLt
  have hi2 : (i 2).val < 1024 := (i 2).isLt
  obtain ⟨t, hf, ht⟩ := idx_onto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, hf, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- THE RESULT ARRAY after the region: every key row's contribution, summed, at every entry. -/
theorem arrO (c : Dev nD) : (Attn.dat (F := Ideal) V c).arrAt 2 cfg1.N = G (V c main_v1_1) (V c main_v1_0) :=
  (Attn.dat V c).arrAt_eq_of_cover 2 (G (V c main_v1_1) (V c main_v1_0)) (fun t hf => flushed_eq V c t hf) (cover)

end Cert.KernelIdeal.AttnValue

end
-- ==== Proof.Spec.lean ====
/-
  The mathematics both programs compute, written once over the extended reals, with no program in sight.

  The data: a batch of two sequences `hs[b, l, j]` (4096 positions, 1024 channels), a square weight
  `W[o, j]`, and two position tables `cs[l, j]`, `sn[l, j]`.

  * `rot`: the rotate-half of a row: channel `j` of the rotated row is `-hs[j + 512]` in the lower half
    of the channels and `hs[j - 512]` in the upper half.
  * `hrow`: the rotary embedding `h = hs * cs + rot hs * sn`, entry by entry.
  * `qrow`: the query projection `q[b, l, o] = Σ_j h[b, l, j] * W[o, j]`.
  * `score`: the unnormalised scores `s[b, l, m] = Σ_j q[b, l, j] * h[b, m, j]`.
  * `outv`: the result `out[b, l, j] = Σ_m s[b, l, m] * h[b, m, j]`.

  `attn` is `outv` as a function of an index of the result array.
-/
import Idealize.ShloMosaic.PureOps.Ideal
import Idealize.ShloMosaic.Lib.ValueIdx

noncomputable section

open scoped BigOperators

namespace Cert.RopeAttn

open Idealize.ShloMosaic Idealize.ShloMosaic.ValueIdx

/-- The activations' shape `[2, 4096, 1024]`, the weight's `[1024, 1024]`, the tables' `[4096, 1024]`. -/
abbrev SA : Shape := ⟨3, ![2, 4096, 1024]⟩
abbrev SW : Shape := ⟨2, ![1024, 1024]⟩
abbrev ST : Shape := ⟨2, ![4096, 1024]⟩

/-- Rotate-half of row `(b, l)` at channel `j`: minus the upper half in the lower channels, the lower half
    in the upper channels. -/
def rot (hs : SA.Idx → EReal) (b : Fin 2) (l : Fin 4096) (j : Fin 1024) : EReal :=
  if h : j.val < 512 then - hs (ix3 b l (⟨j.val + 512, by omega⟩ : Fin 1024))
  else hs (ix3 b l (⟨j.val - 512, by omega⟩ : Fin 1024))

/-- The rotary embedding of the activations, entry `(b, l, j)`. -/
def hrow (hs : SA.Idx → EReal) (cs sn : ST.Idx → EReal) (b : Fin 2) (l : Fin 4096) (j : Fin 1024) : EReal :=
  hs (ix3 b l j) * cs (ix2 l j) + rot hs b l j * sn (ix2 l j)

/-- The query projection, entry `(b, l, o)`: row `(b, l)` of the embedding against row `o` of the weight. -/
def qrow (hs : SA.Idx → EReal) (W : SW.Idx → EReal) (cs sn : ST.Idx → EReal) (b : Fin 2) (l : Fin 4096) (o : Fin 1024) : EReal :=
  ∑ j : Fin 1024, hrow hs cs sn b l j * W (ix2 o j)

/-- The score of query position `l` against key position `m` in batch `b`. -/
def score (hs : SA.Idx → EReal) (W : SW.Idx → EReal) (cs sn : ST.Idx → EReal) (b : Fin 2) (l m : Fin 4096) : EReal :=
  ∑ j : Fin 1024, qrow hs W cs sn b l j * hrow hs cs sn b m j

/-- The result, entry `(b, l, j)`: the scores of position `l` against every position, times the embedding. -/
def outv (hs : SA.Idx → EReal) (W : SW.Idx → EReal) (cs sn : ST.Idx → EReal) (b : Fin 2) (l : Fin 4096) (j : Fin 1024) : EReal :=
  ∑ m : Fin 4096, score hs W cs sn b l m * hrow hs cs sn b m j

/-- The result array as one function of the four argument arrays. -/
def attn (hs : SA.Idx → EReal) (W : SW.Idx → EReal) (cs sn : ST.Idx → EReal) : SA.Idx → EReal :=
  fun i => outv hs W cs sn (i 0) (i 1) (i 2)

theorem attn_ix3 (hs : SA.Idx → EReal) (W : SW.Idx → EReal) (cs sn : ST.Idx → EReal) (b : Fin 2) (l : Fin 4096) (j : Fin 1024) :
    attn hs W cs sn (ix3 b l j) = outv hs W cs sn b l j := rfl

end Cert.RopeAttn

end
-- ==== Proof.KernelIdealRopeValue.lean ====
/-
  The value of the first kernel region (the rotary embedding and the query projection) over the extended reals.

  At a grid point `(b, i)` the body is handed rows `512 i … 512 i + 511` of batch `b` of the activations, the same
  rows of the cosine and sine tables, and the whole transposed weight. It stores two blocks of 512 rows:

  * the embedded rows `h = hs * cos + rotate_half(hs) * sin`, where the rotated row is the concatenation of
    `0 - (upper half of the channels)` and the lower half; over the extended reals `0 - x = -x`, so this is the
    specification's `rot`;
  * their projection: a product with the transposed weight accumulated onto zero, which over the extended reals is
    the plain sum `Σ_j h[r, j] * WT[j, o]`; a change of float format is the identity there.

  First each stored block is read at an index `(r, j)` as a function of the loaded blocks. Then each loaded block is
  read as the rows of its array that the point's index map names, so that what a point writes back is the block of
  ONE whole-array function (`GH`, `GQ`) under the point's rectangle. The 16 blocks tile the output arrays (row `l`
  of batch `b` lies in the block of point `8 b + l / 512`), hence after the region the arrays hold `GH` and `GQ`.
-/
import proofs.«160731_j26345329393796_1_alg».proof.Proof.KernelIdealRope
import proofs.«160731_j26345329393796_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RopeValue

open Idealize.ShloMosaic Idealize.ShloMosaic.TcCoe Idealize.SL.Sem
open Idealize.ShloMosaic.Pipeline (Dat)
open Cert.KernelIdeal Cert.KernelIdeal.Gen Cert.RopeAttn Idealize.ShloMosaic.ValueIdx

/-! ## The stored blocks at an index, as functions of the loaded blocks -/

/-- Rotate-half of row `r` of a block at channel `j`. -/
def rotB (x0 : S1x512x1024.Idx → EReal) (r : Fin 512) (j : Fin 1024) : EReal :=
  if h : j.val < 512 then - x0 (ix3 (0 : Fin 1) r (⟨j.val + 512, by omega⟩ : Fin 1024))
  else x0 (ix3 (0 : Fin 1) r (⟨j.val - 512, by omega⟩ : Fin 1024))

theorem rot_apply (v1 : FVec Ideal S512x1024 .f32) (r : Fin 512) (j : Fin 1024) :
    (concatenate S512x1024 1 [⟨S512x512, subf (broadcast S512x512 (Scalar.ofBits (F := Ideal) .f32 0x00000000#32)) (extractStridedSlice S512x512 ![0, 512] v1 slices_S512x1024_o0_512_S512x512)⟩,
        ⟨S512x512, extractStridedSlice S512x512 ![0, 0] v1 slices_S512x1024_o0_0_S512x512⟩] concatenates_S512x512_S512x512_S512x1024_d1 : S512x1024.Idx → EReal) (ix2 r j)
      = if h : j.val < 512 then - v1 (ix2 r (⟨j.val + 512, by omega⟩ : Fin 1024)) else v1 (ix2 r (⟨j.val - 512, by omega⟩ : Fin 1024)) := by
  split
  · rename_i h
    refine (concatenate_pair_apply_left (t := S512x1024) (s₁ := S512x512) (s₂ := S512x512) (1 : Fin 2) _ _ _ (ix2 r j) rfl (ix2 r (⟨j.val, h⟩ : Fin 512)) (fun b => by
      match b with
      | ⟨0, _⟩ => rfl
      | ⟨1, _⟩ => rfl)).trans ?_
    rw [subf_apply, broadcast_apply, slice2_axis1_apply 512 v1 _ r ⟨j.val, h⟩ ⟨j.val + 512, by omega⟩ (by show j.val + 512 = 512 + j.val; omega)]
    show Ideal.ofBits .f32 0x00000000#32 - _ = _
    rw [Ideal.ofBits_zero_f32, zero_sub]
  · rename_i h
    refine (concatenate_pair_apply_right (t := S512x1024) (s₁ := S512x512) (s₂ := S512x512) (1 : Fin 2) _ _ _ (ix2 r j) rfl rfl (ix2 r (⟨j.val - 512, by omega⟩ : Fin 512)) (fun b hb => by
      match b with
      | ⟨0, _⟩ => rfl
      | ⟨1, _⟩ => exact absurd rfl hb) (by show (j.val - 512) + 512 = j.val; omega)).trans ?_
    rw [slice2_axis1_apply 0 v1 _ r ⟨j.val - 512, by omega⟩ ⟨j.val - 512, by omega⟩ (by show j.val - 512 = 0 + (j.val - 512); omega)]

theorem pay1_apply (x0 : Vec Ideal S1x512x1024 .f32) (x1 x2 : Vec Ideal S512x1024 .f32) (r : Fin 512) (j : Fin 1024) :
    (k0_pay1 x0 x1 x2 : S512x1024.Idx → EReal) (ix2 r j)
      = x0 (ix3 (0 : Fin 1) r j) * x1 (ix2 r j) + rotB x0 r j * x2 (ix2 r j) := by
  unfold k0_pay1
  simp only [truncf_apply, addf_apply, mulf_apply]
  rw [rot_apply]
  unfold rotB
  simp only [shapeCast_1ab_ab_apply]

theorem pay2_apply (x0 : Vec Ideal S1x512x1024 .f32) (x1 x2 : Vec Ideal S512x1024 .f32) (u : Fin 1) (r : Fin 512) (j : Fin 1024) :
    (k0_pay2 x0 x1 x2 : S1x512x1024.Idx → EReal) (ix3 u r j) = (k0_pay1 x0 x1 x2 : S512x1024.Idx → EReal) (ix2 r j) := by
  unfold k0_pay2
  exact shapeCast_ab_1ab_apply _ _ u r j

theorem lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem pay3_apply (x0 : Vec Ideal S1x512x1024 .f32) (x1 x2 : Vec Ideal S512x1024 .f32) (x3 : Vec Ideal S1024x1024 .f32) (u : Fin 1) (r : Fin 512) (o : Fin 1024) :
    (k0_pay3 x0 x1 x2 x3 : S1x512x1024.Idx → EReal) (ix3 u r o)
      = ∑ j : Fin 1024, (k0_pay1 x0 x1 x2 : S512x1024.Idx → EReal) (ix2 r j) * x3 (ix2 j o) := by
  unfold k0_pay3
  generalize k0_pay1 x0 x1 x2 = y
  simp only [matmul]
  rw [shapeCast_ab_1ab_apply, truncf_apply, Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o) ((contrEquiv1 dot_S512x1024_S1024x1024_S512x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 r o) ((contrEquiv1 dot_S512x1024_S1024x1024_S512x1024_1_0_0_1_n_n 1024 rfl rfl).symm k) = ix2 k o := funext fun a => Fin.ext (by
    match a with
    | ⟨0, _⟩ => exact (rhs_0 _ _).trans hk
    | ⟨1, _⟩ => exact rhs_1 _ _)
  rw [el, er, truncf_apply, shapeCast_self]

/-! ## Each loaded block as rows of its array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block indices over the grid: point `t` is `(t / 8, t % 8)`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

theorem t_lt (t : Fin cfg0.N) : t.val < 16 := by
  have h := t.isLt; have hN : cfg0.N = 16 := N_0; omega

/-- The batch of point `t`, and the row of the arrays under row `r` of its blocks. -/
def pb (t : Fin cfg0.N) : Fin 2 := ⟨t.val / 8, by have := t_lt t; omega⟩
def prow (t : Fin cfg0.N) (r : Fin 512) : Fin 4096 := ⟨t.val % 8 * 512 + r.val, by omega⟩

theorem iblk0_apply (c : Dev nD) (t : Fin cfg0.N) (r : Fin 512) (j : Fin 1024) :
    (Rope.iblk (F := Ideal) V c 0 t : S1x512x1024.Idx → EReal) (ix3 (0 : Fin 1) r j)
      = (V c main_arg0 : S2x4096x1024.Idx → EReal) (ix3 (pb t) (prow t r) j) := by
  obtain ⟨e0, e1, e2, -⟩ := idx_facts t
  show (V c main_arg0 : S2x4096x1024.Idx → EReal) (((cfg0.win 0).blk t).view.emb (ix3 (0 : Fin 1) r j)) = _
  refine congrArg (V c main_arg0 : S2x4096x1024.Idx → EReal) (funext fun a => Fin.ext ?_)
  match a with
  | ⟨0, _⟩ => show win0_0.index t (0 : Fin 3) * 1 + 1 * (0 : Fin 1).val = t.val / 8; rw [e0]; simp
  | ⟨1, _⟩ => show win0_0.index t (1 : Fin 3) * 512 + 1 * r.val = t.val % 8 * 512 + r.val; rw [e1]; omega
  | ⟨2, _⟩ => show win0_0.index t (2 : Fin 3) * 1024 + 1 * j.val = j.val; rw [e2]; omega

theorem iblk1_apply (c : Dev nD) (t : Fin cfg0.N) (r : Fin 512) (j : Fin 1024) :
    (Rope.iblk (F := Ideal) V c 1 t : S512x1024.Idx → EReal) (ix2 r j)
      = (V c main_arg2 : S4096x1024.Idx → EReal) (ix2 (prow t r) j) := by
  obtain ⟨-, -, -, e0, e1, -⟩ := idx_facts t
  show (V c main_arg2 : S4096x1024.Idx → EReal) (((cfg0.win 1).blk t).view.emb (ix2 r j)) = _
  refine congrArg (V c main_arg2 : S4096x1024.Idx → EReal) (funext fun a => Fin.ext ?_)
  match a with
  | ⟨0, _⟩ => show win0_1.index t (0 : Fin 2) * 512 + 1 * r.val = t.val % 8 * 512 + r.val; rw [e0]; omega
  | ⟨1, _⟩ => show win0_1.index t (1 : Fin 2) * 1024 + 1 * j.val = j.val; rw [e1]; omega

theorem iblk2_apply (c : Dev nD) (t : Fin cfg0.N) (r : Fin 512) (j : Fin 1024) :
    (Rope.iblk (F := Ideal) V c 2 t : S512x1024.Idx → EReal) (ix2 r j)
      = (V c main_arg3 : S4096x1024.Idx → EReal) (ix2 (prow t r) j) := by
  obtain ⟨-, -, -, -, -, e0, e1, -⟩ := idx_facts t
  show (V c main_arg3 : S4096x1024.Idx → EReal) (((cfg0.win 2).blk t).view.emb (ix2 r j)) = _
  refine congrArg (V c main_arg3 : S4096x1024.Idx → EReal) (funext fun a => Fin.ext ?_)
  match a with
  | ⟨0, _⟩ => show win0_2.index t (0 : Fin 2) * 512 + 1 * r.val = t.val % 8 * 512 + r.val; rw [e0]; omega
  | ⟨1, _⟩ => show win0_2.index t (1 : Fin 2) * 1024 + 1 * j.val = j.val; rw [e1]; omega

theorem iblk3_apply (c : Dev nD) (t : Fin cfg0.N) (j : Fin 1024) (o : Fin 1024) :
    (Rope.iblk (F := Ideal) V c 3 t : S1024x1024.Idx → EReal) (ix2 j o)
      = (V c main_v0 : S1024x1024.Idx → EReal) (ix2 j o) := by
  obtain ⟨-, -, -, -, -, -, -, e0, e1, -⟩ := idx_facts t
  show (V c main_v0 : S1024x1024.Idx → EReal) (((cfg0.win 3).blk t).view.emb (ix2 j o)) = _
  refine congrArg (V c main_v0 : S1024x1024.Idx → EReal) (funext fun a => Fin.ext ?_)
  match a with
  | ⟨0, _⟩ => show win0_3.index t (0 : Fin 2) * 1024 + 1 * j.val = j.val; rw [e0]; omega
  | ⟨1, _⟩ => show win0_3.index t (1 : Fin 2) * 1024 + 1 * o.val = o.val; rw [e1]; omega

/-- The embedding of a block whose three inputs are rows `i * 512 …` of batch `b` of the arrays is the
    specification's embedding of those rows. -/
theorem hrow_block (A0 : S2x4096x1024.Idx → EReal) (A1 A2 : S4096x1024.Idx → EReal)
    (x0 : Vec Ideal S1x512x1024 .f32) (x1 x2 : Vec Ideal S512x1024 .f32) (b : Fin 2) (row : Fin 512 → Fin 4096)
    (h0 : ∀ (r : Fin 512) (j : Fin 1024), x0 (ix3 (0 : Fin 1) r j) = A0 (ix3 b (row r) j))
    (h1 : ∀ (r : Fin 512) (j : Fin 1024), x1 (ix2 r j) = A1 (ix2 (row r) j))
    (h2 : ∀ (r : Fin 512) (j : Fin 1024), x2 (ix2 r j) = A2 (ix2 (row r) j))
    (r : Fin 512) (j : Fin 1024) :
    (k0_pay1 x0 x1 x2 : S512x1024.Idx → EReal) (ix2 r j) = hrow A0 A1 A2 b (row r) j := by
  rw [pay1_apply, h0, h1, h2]
  unfold hrow rot rotB
  split <;> rw [h0]

/-! ## What a point writes back, the cover, and the arrays after the region -/

theorem qrow_block (A0 : S2x4096x1024.Idx → EReal) (A1 A2 : S4096x1024.Idx → EReal) (W : S1024x1024.Idx → EReal)
    (x0 : Vec Ideal S1x512x1024 .f32) (x1 x2 : Vec Ideal S512x1024 .f32) (x3 : Vec Ideal S1024x1024 .f32) (b : Fin 2) (row : Fin 512 → Fin 4096)
    (h0 : ∀ (r : Fin 512) (j : Fin 1024), x0 (ix3 (0 : Fin 1) r j) = A0 (ix3 b (row r) j))
    (h1 : ∀ (r : Fin 512) (j : Fin 1024), x1 (ix2 r j) = A1 (ix2 (row r) j))
    (h2 : ∀ (r : Fin 512) (j : Fin 1024), x2 (ix2 r j) = A2 (ix2 (row r) j))
    (h3 : ∀ (j o : Fin 1024), x3 (ix2 j o) = W (ix2 j o))
    (u : Fin 1) (r : Fin 512) (o : Fin 1024) :
    (k0_pay3 x0 x1 x2 x3 : S1x512x1024.Idx → EReal) (ix3 u r o) = ∑ j : Fin 1024, hrow A0 A1 A2 b (row r) j * W (ix2 j o) := by
  rw [pay3_apply]
  refine Finset.sum_congr rfl fun j _ => ?_
  rw [hrow_block A0 A1 A2 x0 x1 x2 b row h0 h1 h2 r j, h3]

/-- The embedded rows, and their projection, each as one array of the region's input arrays. -/
def GH (c : Dev nD) : S2x4096x1024.Idx → EReal :=
  fun i => hrow (V c main_arg0) (V c main_arg2) (V c main_arg3) (i 0) (i 1) (i 2)
def GQ (c : Dev nD) : S2x4096x1024.Idx → EReal :=
  fun i => ∑ j : Fin 1024, hrow (V c main_arg0) (V c main_arg2) (V c main_arg3) (i 0) (i 1) j * (V c main_v0 : S1024x1024.Idx → EReal) (ix2 j (i 2))

theorem emb4 (t : Fin cfg0.N) (u : Fin 1) (r : Fin 512) (j : Fin 1024) :
    ((cfg0.win 4).blk t).view.emb (ix3 u r j) = (ix3 (pb t) (prow t r) j : S2x4096x1024.Idx) := by
  obtain ⟨-, -, -, -, -, -, -, -, -, e0, e1, e2, -⟩ := idx_facts t
  funext a; apply Fin.ext
  match a with
  | ⟨0, _⟩ => show win0_4.index t (0 : Fin 3) * 1 + 1 * u.val = t.val / 8; rw [e0]; omega
  | ⟨1, _⟩ => show win0_4.index t (1 : Fin 3) * 512 + 1 * r.val = t.val % 8 * 512 + r.val; rw [e1]; omega
  | ⟨2, _⟩ => show win0_4.index t (2 : Fin 3) * 1024 + 1 * j.val = j.val; rw [e2]; omega

theorem emb5 (t : Fin cfg0.N) (u : Fin 1) (r : Fin 512) (j : Fin 1024) :
    ((cfg0.win 5).blk t).view.emb (ix3 u r j) = (ix3 (pb t) (prow t r) j : S2x4096x1024.Idx) := by
  obtain ⟨-, -, -, -, -, -, -, -, -, -, -, -, e0, e1, e2⟩ := idx_facts t
  funext a; apply Fin.ext
  match a with
  | ⟨0, _⟩ => show win0_5.index t (0 : Fin 3) * 1 + 1 * u.val = t.val / 8; rw [e0]; omega
  | ⟨1, _⟩ => show win0_5.index t (1 : Fin 3) * 512 + 1 * r.val = t.val % 8 * 512 + r.val; rw [e1]; omega
  | ⟨2, _⟩ => show win0_5.index t (2 : Fin 3) * 1024 + 1 * j.val = j.val; rw [e2]; omega

/-- What point `t` writes back to the embedded-rows array is block `t` of `GH`. -/
theorem flushedH_eq (c : Dev nD) (t : Fin cfg0.N) :
    (Rope.dat (F := Ideal) V c).flushed 4 t = ((cfg0.win 4).blk t).view.read (Elt Ideal) (GH V c) := by
  show (cfg0.win 4).cut (grid0.coords t) ((Rope.dat (F := Ideal) V c).after 4 t) = _
  rw [Rope.after_4]
  unfold Rope.outH
  rw [View.canon_unit_zero hz3]
  simp only [View.ld_unit_zero (S := S1x512x1024) hz3, View.ld_unit_zero (S := S512x1024) hz2]
  refine funext fun (y : S1x512x1024.Idx) => ?_
  obtain ⟨u, r, j, rfl⟩ : ∃ (u : Fin 1) (r : Fin 512) (j : Fin 1024), y = ix3 u r j := ⟨y 0, y 1, y 2, eq_ix3 y⟩
  show (k0_pay2 (Rope.iblk V c 0 t) (Rope.iblk V c 1 t) (Rope.iblk V c 2 t) : S1x512x1024.Idx → EReal) (ix3 u r j)
    = GH V c (((cfg0.win 4).blk t).view.emb (ix3 u r j))
  rw [emb4]
  refine (pay2_apply (Rope.iblk V c 0 t) (Rope.iblk V c 1 t) (Rope.iblk V c 2 t) u r j).trans ?_
  exact hrow_block (V c main_arg0) (V c main_arg2) (V c main_arg3) (Rope.iblk V c 0 t) (Rope.iblk V c 1 t) (Rope.iblk V c 2 t)
    (pb t) (prow t) (iblk0_apply V c t) (iblk1_apply V c t) (iblk2_apply V c t) r j

/-- What point `t` writes back to the projected-rows array is block `t` of `GQ`. -/
theorem flushedQ_eq (c : Dev nD) (t : Fin cfg0.N) :
    (Rope.dat (F := Ideal) V c).flushed 5 t = ((cfg0.win 5).blk t).view.read (Elt Ideal) (GQ V c) := by
  show (cfg0.win 5).cut (grid0.coords t) ((Rope.dat (F := Ideal) V c).after 5 t) = _
  rw [Rope.after_5]
  unfold Rope.outQ
  rw [View.canon_unit_zero hz3]
  simp only [View.ld_unit_zero (S := S1x512x1024) hz3, View.ld_unit_zero (S := S512x1024) hz2, View.ld_unit_zero (S := S1024x1024) hz2]
  refine funext fun (y : S1x512x1024.Idx) => ?_
  obtain ⟨u, r, o, rfl⟩ : ∃ (u : Fin 1) (r : Fin 512) (o : Fin 1024), y = ix3 u r o := ⟨y 0, y 1, y 2, eq_ix3 y⟩
  show (k0_pay3 (Rope.iblk V c 0 t) (Rope.iblk V c 1 t) (Rope.iblk V c 2 t) (Rope.iblk V c 3 t) : S1x512x1024.Idx → EReal) (ix3 u r o)
    = GQ V c (((cfg0.win 5).blk t).view.emb (ix3 u r o))
  rw [emb5]
  exact qrow_block (V c main_arg0) (V c main_arg2) (V c main_arg3) (V c main_v0) (Rope.iblk V c 0 t) (Rope.iblk V c 1 t) (Rope.iblk V c 2 t) (Rope.iblk V c 3 t)
    (pb t) (prow t) (iblk0_apply V c t) (iblk1_apply V c t) (iblk2_apply V c t) (iblk3_apply V c t) u r o

/-- An index of the array is in point `t`'s block iff each coordinate is in the block's range on its axis. -/
theorem mem_blk4 (t : Fin cfg0.N) (i : S2x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v1_0).slice (win0_4.rect t)).set ↔ _
  rw [View.set_slice_whole, Rect.mem_set_unit]
  exact Iff.rfl

theorem mem_blk5 (t : Fin cfg0.N) (i : S2x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v1_1).slice (win0_5.rect t)).set ↔ _
  rw [View.set_slice_whole, Rect.mem_set_unit]
  exact Iff.rfl

/-- The point whose blocks hold row `l` of batch `b`: `8 * b + l / 512`. -/
def ptOf (i : S2x4096x1024.Idx) : Fin cfg0.N :=
  ⟨8 * (i 0).val + (i 1).val / 512, by
    have h0 : (i 0).val < 2 := (i 0).isLt
    have h1 : (i 1).val < 4096 := (i 1).isLt
    have hN : cfg0.N = 16 := N_0
    rw [hN]; omega⟩

theorem ptOf_val (i : S2x4096x1024.Idx) : (ptOf i).val = 8 * (i 0).val + (i 1).val / 512 := rfl

/-- Every index of the embedded-rows array is in some point's block. -/
theorem cover4 (i : S2x4096x1024.Idx) : ∃ t : Fin cfg0.N, (cfg0.win 4).flush t = true ∧ i ∈ ((cfg0.win 4).blk t).view.set := by
  have h0 : (i 0).val < 2 := (i 0).isLt
  have h1 : (i 1).val < 4096 := (i 1).isLt
  have h2 : (i 2).val < 1024 := (i 2).isLt
  obtain ⟨-, -, -, -, -, -, -, -, -, e0, e1, e2, -⟩ := idx_facts (ptOf i)
  have tv := ptOf_val i
  refine ⟨ptOf i, flush0_4 (ptOf i), ?_⟩
  rw [mem_blk4]
  intro a
  match a with
  | ⟨0, _⟩ => show win0_4.index (ptOf i) (0 : Fin 3) * 1 ≤ (i 0).val ∧ (i 0).val < win0_4.index (ptOf i) (0 : Fin 3) * 1 + 1; rw [e0, tv]; omega
  | ⟨1, _⟩ => show win0_4.index (ptOf i) (1 : Fin 3) * 512 ≤ (i 1).val ∧ (i 1).val < win0_4.index (ptOf i) (1 : Fin 3) * 512 + 512; rw [e1, tv]; omega
  | ⟨2, _⟩ => show win0_4.index (ptOf i) (2 : Fin 3) * 1024 ≤ (i 2).val ∧ (i 2).val < win0_4.index (ptOf i) (2 : Fin 3) * 1024 + 1024; rw [e2]; omega

/-- Every index of the projected-rows array is in some point's block. -/
theorem cover5 (i : S2x4096x1024.Idx) : ∃ t : Fin cfg0.N, (cfg0.win 5).flush t = true ∧ i ∈ ((cfg0.win 5).blk t).view.set := by
  have h0 : (i 0).val < 2 := (i 0).isLt
  have h1 : (i 1).val < 4096 := (i 1).isLt
  have h2 : (i 2).val < 1024 := (i 2).isLt
  obtain ⟨-, -, -, -, -, -, -, -, -, -, -, -, e0, e1, e2⟩ := idx_facts (ptOf i)
  have tv := ptOf_val i
  refine ⟨ptOf i, flush0_5 (ptOf i), ?_⟩
  rw [mem_blk5]
  intro a
  match a with
  | ⟨0, _⟩ => show win0_5.index (ptOf i) (0 : Fin 3) * 1 ≤ (i 0).val ∧ (i 0).val < win0_5.index (ptOf i) (0 : Fin 3) * 1 + 1; rw [e0, tv]; omega
  | ⟨1, _⟩ => show win0_5.index (ptOf i) (1 : Fin 3) * 512 ≤ (i 1).val ∧ (i 1).val < win0_5.index (ptOf i) (1 : Fin 3) * 512 + 512; rw [e1, tv]; omega
  | ⟨2, _⟩ => show win0_5.index (ptOf i) (2 : Fin 3) * 1024 ≤ (i 2).val ∧ (i 2).val < win0_5.index (ptOf i) (2 : Fin 3) * 1024 + 1024; rw [e2]; omega

/-- The embedded-rows array after the region. -/
theorem arrH (c : Dev nD) : (Rope.dat (F := Ideal) V c).arrAt 4 cfg0.N = GH V c :=
  (Rope.dat (F := Ideal) V c).arrAt_eq_of_cover 4 (GH V c) (fun t _ => flushedH_eq V c t) cover4

/-- The projected-rows array after the region. -/
theorem arrQ (c : Dev nD) : (Rope.dat (F := Ideal) V c).arrAt 5 cfg0.N = GQ V c :=
  (Rope.dat (F := Ideal) V c).arrAt_eq_of_cover 5 (GQ V c) (fun t _ => flushedQ_eq V c t) cover5

/-- Entry `(b, l, j)` of the embedded-rows array after the region is the specification's embedding. -/
theorem arrH_apply (c : Dev nD) (b : Fin 2) (l : Fin 4096) (j : Fin 1024) :
    ((Rope.dat (F := Ideal) V c).arrAt 4 cfg0.N : S2x4096x1024.Idx → EReal) (ix3 b l j)
      = hrow (V c main_arg0) (V c main_arg2) (V c main_arg3) b l j := by
  rw [arrH]; rfl

/-- Entry `(b, l, o)` of the projected-rows array after the region: row `(b, l)` of the embedding against
    column `o` of the transposed weight. -/
theorem arrQ_apply (c : Dev nD) (b : Fin 2) (l : Fin 4096) (o : Fin 1024) :
    ((Rope.dat (F := Ideal) V c).arrAt 5 cfg0.N : S2x4096x1024.Idx → EReal) (ix3 b l o)
      = ∑ j : Fin 1024, hrow (V c main_arg0) (V c main_arg2) (V c main_arg3) b l j * (V c main_v0 : S1024x1024.Idx → EReal) (ix2 j o) := by
  rw [arrQ]; rfl

end Cert.KernelIdeal.RopeValue

end
-- ==== Proof.Bridge.lean ====
/-
  The kernel's result array is the specification's function of the four argument arrays.

  The second region reads the two arrays the first region wrote: the embedded rows `h` and their projection
  `q`, the projection taken against the transposed weight the host prepared (entry `(j, o)` of the transposed
  weight is entry `(o, j)` of the weight). Substituting what the first region leaves into what the second
  region leaves gives, at entry `(b, l, c)`, the sum over key rows `m` of (Σ_j q[b,l,j]·h[b,m,j])·h[b,m,c]:
  the specification, term by term.
-/
import proofs.«160731_j26345329393796_1_alg».proof.Proof.KernelIdealRun
import proofs.«160731_j26345329393796_1_alg».proof.Proof.KernelIdealAttnValue
import proofs.«160731_j26345329393796_1_alg».proof.Proof.KernelIdealRopeValue
import proofs.«160731_j26345329393796_1_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Bridge

open Idealize.ShloMosaic Idealize.ShloMosaic.TcCoe Idealize.SL.Sem
open Cert.KernelIdeal Cert.KernelIdeal.Gen Cert.KernelIdeal.Run Cert.RopeAttn Idealize.ShloMosaic.ValueIdx

variable (m : (ℓ : Loc nD τ sig) → Buf (Elt Ideal) ℓ)

/-- The host's transposition, read at an entry: entry `(j, o)` of the transposed weight is entry `(o, j)` of the weight. -/
theorem transposed_apply (c : Dev nD) (j o : Fin 1024) :
    (V1 m c main_v0 : S1024x1024.Idx → EReal) (ix2 j o) = (m ((c : Thread nD τ).loc main_arg1) : S1024x1024.Idx → EReal) (ix2 o j) := by
  have e : (V1 m c main_v0 : S1024x1024.Idx → EReal) = transpose S1024x1024 [1, 0] (m ((c : Thread nD τ).loc main_arg1)) Facts₀.transposes_S1024x1024_S1024x1024_1_0 := by
    dsimp only [V1, W1, W0, hostOps0]; after_results
  rw [e]
  exact transpose_apply [1, 0] _ _ (ix2 j o) (ix2 o j) (fun b => by match b with | ⟨0, _⟩ => rfl | ⟨1, _⟩ => rfl)

/-- No item before the second region touches the three arguments the first region reads. -/
theorem V1_arg0 (c : Dev nD) : V1 m c main_arg0 = m ((c : Thread nD τ).loc main_arg0) := W1_of_ne m c main_arg0 (by decide)
theorem V1_arg2 (c : Dev nD) : V1 m c main_arg2 = m ((c : Thread nD τ).loc main_arg2) := W1_of_ne m c main_arg2 (by decide)
theorem V1_arg3 (c : Dev nD) : V1 m c main_arg3 = m ((c : Thread nD τ).loc main_arg3) := W1_of_ne m c main_arg3 (by decide)

/-- The second region finds the embedded rows in the first region's first result, -/
theorem keys_apply (c : Dev nD) (b : Fin 2) (l : Fin 4096) (j : Fin 1024) :
    (V2 m c main_v1_0 : S2x4096x1024.Idx → EReal) (ix3 b l j)
      = hrow (m ((c : Thread nD τ).loc main_arg0)) (m ((c : Thread nD τ).loc main_arg2)) (m ((c : Thread nD τ).loc main_arg3)) b l j := by
  have e : (V2 m c main_v1_0 : S2x4096x1024.Idx → EReal) = (Rope.dat (F := Ideal) (V1 m) c).arrAt 4 cfg0.N := W2_arr m c 4
  rw [e, RopeValue.arrH_apply, V1_arg0, V1_arg2, V1_arg3]

/-- and their projection in its second. -/
theorem queries_apply (c : Dev nD) (b : Fin 2) (l : Fin 4096) (o : Fin 1024) :
    (V2 m c main_v1_1 : S2x4096x1024.Idx → EReal) (ix3 b l o)
      = qrow (m ((c : Thread nD τ).loc main_arg0)) (m ((c : Thread nD τ).loc main_arg1)) (m ((c : Thread nD τ).loc main_arg2)) (m ((c : Thread nD τ).loc main_arg3)) b l o := by
  have e : (V2 m c main_v1_1 : S2x4096x1024.Idx → EReal) = (Rope.dat (F := Ideal) (V1 m) c).arrAt 5 cfg0.N := W2_arr m c 5
  rw [e, RopeValue.arrQ_apply, V1_arg0, V1_arg2, V1_arg3]
  change @Eq EReal _ _
  unfold qrow
  refine Finset.sum_congr rfl fun j _ => ?_
  rw [transposed_apply]

/-- THE KERNEL'S RESULT is the specification's function of the arguments. -/
theorem kernel_eq (c : Dev nD) :
    (Attn.dat (F := Ideal) (V2 m) c).arrAt 2 cfg1.N
      = attn (m ((c : Thread nD τ).loc main_arg0)) (m ((c : Thread nD τ).loc main_arg1)) (m ((c : Thread nD τ).loc main_arg2)) (m ((c : Thread nD τ).loc main_arg3)) := by
  rw [AttnValue.arrO]
  funext i
  obtain ⟨b, l, q, rfl⟩ : ∃ (b : Fin 2) (l : Fin 4096) (q : Fin 1024), i = ix3 b l q := ⟨i 0, i 1, i 2, eq_ix3 i⟩
  show (∑ k : Fin 4096, AttnValue.term (V2 m c main_v1_1) (V2 m c main_v1_0) b l q k) = outv _ _ _ _ b l q
  unfold outv AttnValue.term score
  refine Finset.sum_congr rfl fun k _ => ?_
  rw [keys_apply]
  refine congrArg (· * _) ?_
  refine Finset.sum_congr rfl fun j _ => ?_
  rw [queries_apply, keys_apply]

end Cert.KernelIdeal.Bridge

end
-- ==== Proof.RefValue.lean ====
/-
  The reference's result, read index by index, is the specification's `attn`.

  The reference computes the rotary embedding `h = hs * cos + rotate_half(hs) * sin` entry by entry (the two
  tables broadcast over the batch), then three contractions: `q = h · Wᵀ` over the channels, the scores
  `s = q · hᵀ` over the channels within a batch, and the result `s · h` over the key positions within a batch.
  Read at an index `(b, l, j)` each stage is the corresponding function of the specification:

  * the rotate-half, a concatenation along the channels of minus the upper half and the lower half, is `rot`:
    a channel below 512 falls in the first piece and reads `-hs[j + 512]`, a channel from 512 on falls in the
    second piece, 512 less, and reads `hs[j - 512]`;
  * the embedding is `hrow`, the query projection `qrow`, the scores `score`, the result `outv`: each
    contraction is a sum over its one contracted coordinate, with the left operand written first, as in the
    specification, so the sums agree term by term.
-/
import proofs.«160731_j26345329393796_1_alg».proof.Proof.Gen.ReferenceIdeal.Read
import proofs.«160731_j26345329393796_1_alg».proof.Proof.Spec

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RopeAttn

/-- The activations and the result, the weight, a position table, and a half of the channels, as arrays of
    extended reals. -/
abbrev ArrA : Type := (⟨S2x4096x1024, .f32⟩ : BufTy).Contents (Elt Ideal)
abbrev ArrW : Type := (⟨S1024x1024, .f32⟩ : BufTy).Contents (Elt Ideal)
abbrev ArrT : Type := (⟨S4096x1024, .f32⟩ : BufTy).Contents (Elt Ideal)
abbrev ArrH : Type := (⟨S2x4096x512, .f32⟩ : BufTy).Contents (Elt Ideal)

/-! ## The concatenation of two half-rows at a channel -/

/-- A channel below 512 of the concatenation reads the first piece at that channel. -/
theorem cat_lower (y₁ y₂ : ArrH) (b : Fin 2) (l : Fin 4096) (j : Fin 1024) (h : j.val < 512) :
    concatenate S2x4096x1024 2 [⟨S2x4096x512, y₁⟩, ⟨S2x4096x512, y₂⟩]
        concatenates_S2x4096x512_S2x4096x512_S2x4096x1024_d2 (ix3 b l j)
      = y₁ (ix3 b l (⟨j.val, h⟩ : Fin 512)) :=
  concatenate_pair_apply_left 2 y₁ y₂ _ (ix3 b l j) rfl (ix3 b l (⟨j.val, h⟩ : Fin 512)) (fun a => by
    match a with
    | ⟨0, _⟩ => rfl
    | ⟨1, _⟩ => rfl
    | ⟨2, _⟩ => rfl)

/-- A channel from 512 on of the concatenation reads the second piece, 512 channels lower. -/
theorem cat_upper (y₁ y₂ : ArrH) (b : Fin 2) (l : Fin 4096) (j : Fin 1024) (h : ¬ j.val < 512) :
    concatenate S2x4096x1024 2 [⟨S2x4096x512, y₁⟩, ⟨S2x4096x512, y₂⟩]
        concatenates_S2x4096x512_S2x4096x512_S2x4096x1024_d2 (ix3 b l j)
      = y₂ (ix3 b l (⟨j.val - 512, by omega⟩ : Fin 512)) :=
  concatenate_pair_apply_right 2 y₁ y₂ _ (ix3 b l j) rfl rfl (ix3 b l (⟨j.val - 512, by omega⟩ : Fin 512))
    (fun a ha => by
      match a with
      | ⟨0, _⟩ => rfl
      | ⟨1, _⟩ => rfl
      | ⟨2, _⟩ => exact absurd rfl ha)
    (by show j.val - 512 + 512 = j.val; omega)

/-! ## The stages at an index -/

/-- The rotate-half stage at `(b, l, j)` is `rot`. -/
theorem rotate_half_apply (x0 : ArrA) (b : Fin 2) (l : Fin 4096) (j : Fin 1024) :
    val_main_v6 (F := Ideal) x0 (ix3 b l j) = rot x0 b l j := by
  unfold val_main_v6 rot
  by_cases h : j.val < 512
  · rw [dif_pos h, cat_lower _ _ b l j h, val_main_v5_apply, val_main_v4_apply]
    have e : idx_main_v4 (ix3 b l (⟨j.val, h⟩ : Fin 512)) = ix3 b l (⟨j.val + 512, by omega⟩ : Fin 1024) :=
      funext fun a => Fin.ext (by
        match a with
        | ⟨0, _⟩ => rfl
        | ⟨1, _⟩ => rfl
        | ⟨2, _⟩ => exact Nat.add_comm 512 j.val)
    rw [e]
    rfl
  · rw [dif_neg h, cat_upper _ _ b l j h, val_main_v3_apply]
    have e : idx_main_v3 (ix3 b l (⟨j.val - 512, by omega⟩ : Fin 512)) = ix3 b l (⟨j.val - 512, by omega⟩ : Fin 1024) :=
      funext fun a => Fin.ext (by
        match a with
        | ⟨0, _⟩ => rfl
        | ⟨1, _⟩ => rfl
        | ⟨2, _⟩ => rfl)
    rw [e]

/-- A position table broadcast over the batch, at `(b, l, j)`, is the table at `(l, j)`. -/
theorem idx_table (b : Fin 2) (l : Fin 4096) (j : Fin 1024) :
    idx_main_v0 (idx_main_v1 (ix3 b l j)) = ix2 l j :=
  funext fun a => Fin.ext (by
    match a with
    | ⟨0, _⟩ => rfl
    | ⟨1, _⟩ => rfl)

/-- The embedding stage at `(b, l, j)` is `hrow`. -/
theorem embed_apply (x0 : ArrA) (x2 x3 : ArrT) (b : Fin 2) (l : Fin 4096) (j : Fin 1024) :
    val_main_v10 (F := Ideal) x0 x2 x3 (ix3 b l j) = hrow x0 x2 x3 b l j := by
  rw [val_main_v10_apply, val_main_v2_apply, val_main_v9_apply, val_main_v1_apply, val_main_v0_apply,
    val_main_v8_apply, val_main_v7_apply, rotate_half_apply]
  have e : idx_main_v7 (idx_main_v8 (ix3 b l j)) = ix2 l j := idx_table b l j
  rw [idx_table, e]
  rfl

/-- The query projection at `(b, l, o)` is `qrow`. -/
theorem query_apply (x0 : ArrA) (x1 : ArrW) (x2 x3 : ArrT) (b : Fin 2) (l : Fin 4096) (o : Fin 1024) :
    val_main_v11 (F := Ideal) x0 x1 x2 x3 (ix3 b l o) = qrow x0 x1 x2 x3 b l o := by
  rw [val_main_v11_apply]
  unfold qrow
  refine Finset.sum_congr rfl fun k _ => ?_
  have el : lidx_main_v11 (ix3 b l o) k = ix3 b l k := funext fun a => Fin.ext (by
    match a with
    | ⟨0, _⟩ => rfl
    | ⟨1, _⟩ => rfl
    | ⟨2, _⟩ => rfl)
  have er : ridx_main_v11 (ix3 b l o) k = ix2 o k := funext fun a => Fin.ext (by
    match a with
    | ⟨0, _⟩ => rfl
    | ⟨1, _⟩ => rfl)
  rw [el, er, embed_apply]

/-- The score of position `l` against position `m` in batch `b` is `score`. -/
theorem score_apply (x0 : ArrA) (x1 : ArrW) (x2 x3 : ArrT) (b : Fin 2) (l m : Fin 4096) :
    val_main_v12 (F := Ideal) x0 x1 x2 x3 (ix3 b l m) = score x0 x1 x2 x3 b l m := by
  rw [val_main_v12_apply]
  unfold score
  refine Finset.sum_congr rfl fun k _ => ?_
  have el : lidx_main_v12 (ix3 b l m) k = ix3 b l k := funext fun a => Fin.ext (by
    match a with
    | ⟨0, _⟩ => rfl
    | ⟨1, _⟩ => rfl
    | ⟨2, _⟩ => rfl)
  have er : ridx_main_v12 (ix3 b l m) k = ix3 b m k := funext fun a => Fin.ext (by
    match a with
    | ⟨0, _⟩ => rfl
    | ⟨1, _⟩ => rfl
    | ⟨2, _⟩ => rfl)
  rw [el, er, query_apply, embed_apply]

/-- The result at `(b, l, j)` is `outv`. -/
theorem out_apply (x0 : ArrA) (x1 : ArrW) (x2 x3 : ArrT) (b : Fin 2) (l : Fin 4096) (j : Fin 1024) :
    val_main_v13 (F := Ideal) x0 x1 x2 x3 (ix3 b l j) = outv x0 x1 x2 x3 b l j := by
  rw [val_main_v13_apply]
  unfold outv
  refine Finset.sum_congr rfl fun k _ => ?_
  have el : lidx_main_v13 (ix3 b l j) k = ix3 b l k := funext fun a => Fin.ext (by
    match a with
    | ⟨0, _⟩ => rfl
    | ⟨1, _⟩ => rfl
    | ⟨2, _⟩ => rfl)
  have er : ridx_main_v13 (ix3 b l j) k = ix3 b k j := funext fun a => Fin.ext (by
    match a with
    | ⟨0, _⟩ => rfl
    | ⟨1, _⟩ => rfl
    | ⟨2, _⟩ => rfl)
  rw [el, er, score_apply, embed_apply]

/-! ## The reference is the specification -/

/-- The reference's result array is `attn` of the four argument arrays. -/
theorem ref_eq (x0 : ArrA) (x1 : ArrW) (x2 x3 : ArrT) :
    Cert.ReferenceIdeal.Read.val_main_v13 (F := Ideal) x0 x1 x2 x3 = Cert.RopeAttn.attn x0 x1 x2 x3 := by
  funext i
  obtain ⟨b, l, j, rfl⟩ : ∃ (b : Fin 2) (l : Fin 4096) (j : Fin 1024), i = ix3 b l j :=
    ⟨i 0, i 1, i 2, eq_ix3 i⟩
  rw [out_apply, attn_ix3]

end Cert.ReferenceIdeal.RefValue

end
-- ==== Proof.lean ====
/-
  The certificate's five claims, assembled.

  Both printed programs of the kernel run to the end with their argument arrays unchanged: the host
  transposition, then the two kernel regions, each entered from what the item before it left (the run modules).
  The reference runs as its fourteen host operations. The idealization rewrote nothing, so there is nothing to
  preserve. And at the ideal instance both programs end with one function of the four argument arrays — the
  rotary embedding `h`, its projection `q`, and at entry `(b, l, c)` the sum over all key rows `m` of
  (Σ_j q[b,l,j]·h[b,m,j])·h[b,m,c] —: the kernel reaches it as four block sums of 1024 key rows each, added in
  order onto zero, the reference as one sum over the 4096 rows; addition of extended reals is associative, so
  the two agree with no condition on the inputs.
-/
import proofs.«160731_j26345329393796_1_alg».proof.Defs
import proofs.«160731_j26345329393796_1_alg».proof.Proof.Gen.Kernel
import proofs.«160731_j26345329393796_1_alg».proof.Proof.Gen.KernelIdeal
import proofs.«160731_j26345329393796_1_alg».proof.Proof.Gen.ReferenceIdeal
import proofs.«160731_j26345329393796_1_alg».proof.Proof.Gen.ReferenceIdeal.Run
import proofs.«160731_j26345329393796_1_alg».proof.Proof.Gen.ReferenceIdeal.Read
import proofs.«160731_j26345329393796_1_alg».proof.Proof.Gen.Pre_finite_inputs
import proofs.«160731_j26345329393796_1_alg».proof.Proof.KernelRun
import proofs.«160731_j26345329393796_1_alg».proof.Proof.KernelIdealRun
import proofs.«160731_j26345329393796_1_alg».proof.Proof.Bridge
import proofs.«160731_j26345329393796_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the specification's function of the arguments. -/
theorem algebraic : Cert.algebraic_KernelIdeal_ReferenceIdeal := by
  intro m ρ m' ρ' _ hagree
  refine ⟨fun c => Cert.RopeAttn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Bridge.kernel_eq m c), (h c).2⟩)
      (Cert.KernelIdeal.Run.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
